-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S5000x64 : Shape := ⟨2, ![5000, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S80x64 : Shape := ⟨2, ![80, 64]⟩
abbrev S8x64 : Shape := ⟨2, ![8, 64]⟩
abbrev S5000 : Shape := ⟨1, ![5000]⟩
abbrev S5000x1 : Shape := ⟨2, ![5000, 1]⟩

abbrev nBuf : Space → Nat
  | .hbm => 104
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S_, .f32⟩
  | .hbm, ⟨12, _⟩ => ⟨S50000, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S_, .f32⟩
  | .hbm, ⟨22, _⟩ => ⟨S800000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S50000x64, .bf16⟩
  | .hbm, ⟨50, _⟩ => ⟨S800000x1, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .bf16⟩
  | .hbm, ⟨60, _⟩ => ⟨S800000x64, .f32⟩
  | .hbm, ⟨61, _⟩ => ⟨S800000x64, .f32⟩
  | .hbm, ⟨62, _⟩ => ⟨S800000x64, .f32⟩
  | .hbm, ⟨63, _⟩ => ⟨S50000x64, .f32⟩
  | .hbm, ⟨64, _⟩ => ⟨S50000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S50000x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S50000x64, .f32⟩
  | .hbm, ⟨78, _⟩ => ⟨S80x64, .f32⟩
  | .hbm, ⟨79, _⟩ => ⟨S80x64, .f32⟩
  | .hbm, ⟨80, _⟩ => ⟨S_, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S1x64, .f32⟩
  | .hbm, ⟨86, _⟩ => ⟨S_, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S1x64, .f32⟩
  | .hbm, ⟨92, _⟩ => ⟨S_, .f32⟩
  | .hbm, ⟨93, _⟩ => ⟨S1x64, .f32⟩
  | .hbm, ⟨94, _⟩ => ⟨S1x64, .f32⟩
  | .hbm, ⟨95, _⟩ => ⟨S_, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S1x64, .f32⟩
  | .hbm, ⟨102, _⟩ => ⟨S1x64, .f32⟩
  | .hbm, ⟨103, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S8x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_cst_11 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  bcast_S800000x1_S800000x64_0_1 : S800000x1.BroadcastsInDim S800000x64 (![0, 1] : Fin 2 → Fin S800000x64.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  broadcasts_S1x64_S8x64 : S1x64.Broadcasts S8x64
  inb_S8x64_S8x64_0_0 : ∀ a, (![0, 0] : Fin 2 → Nat) a + S8x64.size a ≤ S8x64.size a
  h_S8x64 : 0 < S8x64.numel
  reducesTo_S80x64_S64_d0 : S80x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reduces_S5000x64_S5000 : S5000x64.Reduces [1] S5000
  shapeCasts_S5000_S5000x1 : S5000.ShapeCasts S5000x1
  broadcasts_S5000x1_S5000x64 : S5000x1.Broadcasts S5000x64
  dot_S5000x64_S64x64_S5000x64_1_0_0_1_n_n_wf : DotDims.WF S5000x64 S64x64 S5000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S80x64.size a
  hwx1_3 : ∀ i : grid1.Coords, EltTy.bits .f32 = 32 ∨ (Rect.block (s := S80x64) S8x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x64.size a ≤ S80x64.size a
  hwx1_4 : ∀ i : grid1.Coords, EltTy.bits .f32 = 32 ∨ (Rect.block (s := S80x64) S8x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58_0) S5000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58_1) S8x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58_2) S8x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S_, .f32⟩
  | .hbm, ⟨12, _⟩ => ⟨S50000, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S_, .f32⟩
  | .hbm, ⟨22, _⟩ => ⟨S800000, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S800000x64, .f32⟩
  | .hbm, ⟨59, _⟩ => ⟨S800000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S50000, .f32⟩
  | .hbm, ⟨108, _⟩ => ⟨S50000x1, .f32⟩
  | .hbm, ⟨109, _⟩ => ⟨S50000x1, .f32⟩
  | .hbm, ⟨110, _⟩ => ⟨S_, .f32⟩
  | .hbm, ⟨111, _⟩ => ⟨S50000x1, .f32⟩
  | .hbm, ⟨112, _⟩ => ⟨S50000x1, .f32⟩
  | .hbm, ⟨113, _⟩ => ⟨S50000x64, .f32⟩
  | .hbm, ⟨114, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call0_cst : Ref sig .tc := ⟨.hbm, 102, rfl⟩
abbrev main_call0_v0 : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S800000x1_S800000x64_0_1 : S800000x1.BroadcastsInDim S800000x64 (![0, 1] : Fin 2 → Fin S800000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000x64 : S_.BroadcastsInDim S50000x64 (![] : Fin 0 → Fin S50000x64.rank)
  reducesTo_S50000x64_S50000_d1 : S50000x64.ReducesTo [1] S50000
  bcast_S_S50000x1 : S_.BroadcastsInDim S50000x1 (![] : Fin 0 → Fin S50000x1.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.RunValue.lean ====
/-
  The idealized kernel's whole run, with its result named. @main is six segments — host operations, the
  matmul region, host operations, the combine region, host operations, the finalize region — and the
  buffer contents at each boundary are a fold from the launch memory (`Gen.W0` … `Gen.W6`). Every weakly
  fair execution terminates, and in its final state every unscoped buffer holds the last boundary's
  contents `Gen.W6`: in particular the result buffer, and each argument array as launched.
-/
import proofs.«103114_j34007551050423_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the six argument arrays end as launched. -/
theorem run : θ_run defs (onTc (τ := τ) (main (F := F))) ⟨m, fun _ => 0, ρ⟩ (fun r => ∀ c : Dev nD,
      r.2.mem ((c.tc : Thread nD τ).loc main_v75) = W6 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v75 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.Fold.lean ====
/-
  The host operations of the idealized kernel between its three regions, read as functions.

  Between the matmul region and the combine region the host computes, from the product h and the two
  rows of the edge list (src, dst): the degree deg(i) = (0 + number of edges into i) + 1, its inverse
  square root dinv, and the aggregate
      agg(i, ·) = h(i, ·) · dinv(i)² + Σ_{edges e into i} dinv(src e) · dinv(dst e) · h(src e, ·).
  Between the combine region and the finalize region it turns the per-block partial column sums
  (each block's sums stored 8 times) into the mean and the one-pass variance
      mean = (Σ partial sums / 8) / 50000,   var = max((Σ partial square sums / 8) / 50000 − mean², 0).
  This module names those chains (`wrapIdx`, `degK`, `aggK`, `meanK`, `varK`) and reads each buffer a
  region is entered with through the fold of buffer contents `Gen.W0 … Gen.W5`.
-/
import proofs.«103114_j34007551050423_2_alg».proof.Proof.Gen.KernelIdeal.Frame
import Idealize.ShloMosaic.PureOps.Ideal
import Idealize.ShloMosaic.PureOps.Ideal.Laws
import Idealize.ShloMosaic.Lib.ValueIdx
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The chains as functions -/

/-- An edge endpoint as a scatter / gather index column: a negative index v is read as v + 50000. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The degree as the kernel's host computes it: ones scattered into zeros at the destinations, plus one. -/
def degK (dst : IVec S800000 32) : FVec Ideal S50000 .f32 :=
  addf (Host.scatterAdd scatter_S50000_S800000x1_S800000_n_0_0_1
      (broadcastInDim S50000 ![] bcast_S_S50000 (constant (F := Ideal) S_ .f32 0x00000000#32)) (wrapIdx dst)
      (broadcastInDim S800000 ![] bcast_S_S800000 (constant (F := Ideal) S_ .f32 0x3F800000#32)))
    (broadcastInDim S50000 ![] bcast_S_S50000 (constant (F := Ideal) S_ .f32 0x3F800000#32))

/-- The aggregate: the self term h · dinv² plus the edge terms scattered to their destinations; the
    gathered copy of h passes through a narrower float format and back, which is the identity here. -/
def aggK (h : FVec Ideal S50000x64 .f32) (src dst : IVec S800000 32) : FVec Ideal S50000x64 .f32 :=
  Host.scatterAdd scatter_S50000x64_S800000x1_S800000x64_1_0_0_1
    (mulf (F := Ideal) h (broadcastInDim S50000x64 ![0, 1] bcast_S50000x1_S50000x64_0_1
      (shapeCast _ (mulf (Host.rsqrt (degK dst)) (Host.rsqrt (degK dst))) shapeCasts_S50000_S50000x1)))
    (wrapIdx dst)
    (mulf (broadcastInDim S800000x64 ![0, 1] bcast_S800000x1_S800000x64_0_1
        (broadcastInDim S800000x1 ![0] bcast_S800000_S800000x1_0
          (mulf (Host.gather gather_S50000_S800000x1_S800000_n_0_n_n_0_1_1 (Host.rsqrt (degK dst)) (wrapIdx src))
            (Host.gather gather_S50000_S800000x1_S800000_n_0_n_n_0_1_1 (Host.rsqrt (degK dst)) (wrapIdx dst)))))
      (extf (F := Ideal) .f32 (Host.gather gather_S50000x64_S800000x1_S800000x64_1_0_n_n_0_1_164 (truncf (F := Ideal) .bf16 h bitsLt_bf16_f32) (wrapIdx src)) bitsLt_bf16_f32))

/-- Partial column sums (each block's stored 8 times) to a mean-like row: (Σ over the 80 rows / 8) / 50000. -/
def meanK (s : FVec Ideal S80x64 .f32) : FVec Ideal S1x64 .f32 :=
  Host.divf (shapeCast _ (Host.divf (Host.reduceAdd s (constant (F := Ideal) S_ .f32 0x00000000#32) reducesTo_S80x64_S64_d0 h_S_)
      (broadcastInDim S64 ![] bcast_S_S64 (constant (F := Ideal) S_ .f32 0x41000000#32))) shapeCasts_S64_S1x64)
    (broadcastInDim S1x64 ![] bcast_S_S1x64 (constant (F := Ideal) S_ .f32 0x47435000#32))

/-- The one-pass variance, clamped at zero: max(mean of squares − mean², 0). -/
def varK (s q : FVec Ideal S80x64 .f32) : FVec Ideal S1x64 .f32 :=
  maximumf (subf (meanK q) (mulf (meanK s) (meanK s)))
    (broadcastInDim S1x64 ![] bcast_S_S1x64 (constant (F := Ideal) S_ .f32 0x00000000#32))

variable (m : (ℓ : Loc nD τ sig) → Buf (Elt Ideal) ℓ) (ρ : Dev nD → PrngReg)

/-- A buffer no operation of a stretch writes holds after the stretch what it held before. -/
macro "not_written" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Region 0 is entered with the arguments as launched -/

theorem V1_arg0 (c : Dev nD) : V1 m ρ c main_arg0 = m ((c : Thread nD τ).loc main_arg0) := by
  show StableHlo.after hostOps0 (W0 m ρ c) (Proc.devRef .tc main_arg0) = _
  exact (by not_written hostOps0 : StableHlo.after hostOps0 (W0 m ρ c) (Proc.devRef .tc main_arg0) = W0 m ρ c (Proc.devRef .tc main_arg0))
theorem V1_arg2 (c : Dev nD) : V1 m ρ c main_arg2 = m ((c : Thread nD τ).loc main_arg2) := by
  show StableHlo.after hostOps0 (W0 m ρ c) (Proc.devRef .tc main_arg2) = _
  exact (by not_written hostOps0 : StableHlo.after hostOps0 (W0 m ρ c) (Proc.devRef .tc main_arg2) = W0 m ρ c (Proc.devRef .tc main_arg2))

/-- The two rows of the edge list, as the first stretch leaves them. -/
def srcOf (x1 : IVec S2x800000 32) : IVec S800000 32 :=
  shapeCast _ (extractStridedSlice S1x800000 ![0, 0] x1 slices_S2x800000_S1x800000_0_0) shapeCasts_S1x800000_S800000
def dstOf (x1 : IVec S2x800000 32) : IVec S800000 32 :=
  shapeCast _ (extractStridedSlice S1x800000 ![1, 0] x1 slices_S2x800000_S1x800000_1_0) shapeCasts_S1x800000_S800000

theorem W1_v1 (c : Dev nD) : W1 m ρ c (Proc.devRef .tc main_v1) = srcOf (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results
  rfl
theorem W1_arg (c : Dev nD) (b : Ref sig .tc) (hb : b = main_arg3 ∨ b = main_arg4 ∨ b = main_arg5) :
    W1 m ρ c (Proc.devRef .tc b) = m ((c : Thread nD τ).loc b) := by
  show StableHlo.after hostOps0 (W0 m ρ c) (Proc.devRef .tc b) = _
  rcases hb with rfl | rfl | rfl
  · exact (by not_written hostOps0 : StableHlo.after hostOps0 (W0 m ρ c) (Proc.devRef .tc main_arg3) = W0 m ρ c (Proc.devRef .tc main_arg3))
  · exact (by not_written hostOps0 : StableHlo.after hostOps0 (W0 m ρ c) (Proc.devRef .tc main_arg4) = W0 m ρ c (Proc.devRef .tc main_arg4))
  · exact (by not_written hostOps0 : StableHlo.after hostOps0 (W0 m ρ c) (Proc.devRef .tc main_arg5) = W0 m ρ c (Proc.devRef .tc main_arg5))

/-! ## Region 1 is entered with the aggregate and the bias row -/

theorem V3_v54 (c : Dev nD) : V3 m ρ c main_v54
    = aggK (W2 m ρ c (Proc.devRef .tc main_v4)) (W2 m ρ c (Proc.devRef .tc main_v1)) (W2 m ρ c (Proc.devRef .tc main_v3)) := by
  show StableHlo.after hostOps1 (W2 m ρ c) (Proc.devRef .tc main_v54) = _
  after_results_simp
  rfl
theorem V3_v55 (c : Dev nD) : V3 m ρ c main_v55 = shapeCast _ (W2 m ρ c (Proc.devRef .tc main_arg3)) shapeCasts_S64_S1x64 := by
  show StableHlo.after hostOps1 (W2 m ρ c) (Proc.devRef .tc main_v55) = _
  after_results_simp
  rfl
theorem W3_v56 (c : Dev nD) : W3 m ρ c (Proc.devRef .tc main_v56) = shapeCast _ (W2 m ρ c (Proc.devRef .tc main_arg4)) shapeCasts_S64_S1x64 := by
  show StableHlo.after hostOps1 (W2 m ρ c) (Proc.devRef .tc main_v56) = _
  after_results_simp
  rfl
theorem W3_v57 (c : Dev nD) : W3 m ρ c (Proc.devRef .tc main_v57) = shapeCast _ (W2 m ρ c (Proc.devRef .tc main_arg5)) shapeCasts_S64_S1x64 := by
  show StableHlo.after hostOps1 (W2 m ρ c) (Proc.devRef .tc main_v57) = _
  after_results_simp
  rfl

/-- What region 0 does not write it leaves as entered. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-! ## Region 2 is entered with the pre-normalisation array, the mean, the variance, and the two affine rows -/

theorem V5_v58_0 (c : Dev nD) : V5 m ρ c main_v58_0 = W4 m ρ c (Proc.devRef .tc main_v58_0) := by
  show StableHlo.after hostOps2 (W4 m ρ c) (Proc.devRef .tc main_v58_0) = _
  exact (by not_written hostOps2 : StableHlo.after hostOps2 (W4 m ρ c) (Proc.devRef .tc main_v58_0) = W4 m ρ c (Proc.devRef .tc main_v58_0))
theorem V5_v56 (c : Dev nD) : V5 m ρ c main_v56 = W4 m ρ c (Proc.devRef .tc main_v56) := by
  show StableHlo.after hostOps2 (W4 m ρ c) (Proc.devRef .tc main_v56) = _
  exact (by not_written hostOps2 : StableHlo.after hostOps2 (W4 m ρ c) (Proc.devRef .tc main_v56) = W4 m ρ c (Proc.devRef .tc main_v56))
theorem V5_v57 (c : Dev nD) : V5 m ρ c main_v57 = W4 m ρ c (Proc.devRef .tc main_v57) := by
  show StableHlo.after hostOps2 (W4 m ρ c) (Proc.devRef .tc main_v57) = _
  exact (by not_written hostOps2 : StableHlo.after hostOps2 (W4 m ρ c) (Proc.devRef .tc main_v57) = W4 m ρ c (Proc.devRef .tc main_v57))
theorem V5_v68 (c : Dev nD) : V5 m ρ c main_v68 = meanK (W4 m ρ c (Proc.devRef .tc main_v58_1)) := by
  show StableHlo.after hostOps2 (W4 m ρ c) (Proc.devRef .tc main_v68) = _
  after_results
  rfl
theorem V5_v74 (c : Dev nD) : V5 m ρ c main_v74
    = varK (W4 m ρ c (Proc.devRef .tc main_v58_1)) (W4 m ρ c (Proc.devRef .tc main_v58_2)) := by
  show StableHlo.after hostOps2 (W4 m ρ c) (Proc.devRef .tc main_v74) = _
  after_results
  rfl

end Cert.KernelIdeal.Fold

end
-- ==== Proof.Spec.lean ====
/-
  The mathematics the three kernel regions compute, stated once over literal shapes and the extended
  reals, with no reference to either program.

  * `MatMul x w`     : the matrix product, entry (r, j) the sum over k of x(r, k) · w(k, j).
  * `AddBias a b`    : a row vector b (shape 1 × 64) added to every row of a.
  * `Sq p`           : the entrywise square.
  * `BlockSums p`    : the 50000 rows are cut into 10 consecutive blocks of 5000; row 8·t + s of the result
                         (s < 8) holds the column sums of block t — each block's sums appear 8 times.
  * `row v`          : a length-64 vector read as a 1 × 64 array.
  * `IsReal f`       : every entry of f is a real number (no entry is +∞ or −∞).
-/
import Idealize.ShloMosaic.PureOps.Ideal
import Idealize.ShloMosaic.Lib.ValueIdx

noncomputable section

namespace Cert.Spec

open Idealize.ShloMosaic

abbrev N50000x64 : Shape := ⟨2, ![50000, 64]⟩
abbrev N64x64 : Shape := ⟨2, ![64, 64]⟩
abbrev N1x64 : Shape := ⟨2, ![1, 64]⟩
abbrev N80x64 : Shape := ⟨2, ![80, 64]⟩
abbrev N64 : Shape := ⟨1, ![64]⟩

/-- Every entry is a real number. -/
def IsReal {ι : Type} (f : ι → EReal) : Prop := ∀ i, ∃ r : ℝ, f i = (r : EReal)

/-- The matrix product: entry (r, j) is the sum over k of x(r, k) · w(k, j). -/
def MatMul (x : N50000x64.Idx → EReal) (w : N64x64.Idx → EReal) : N50000x64.Idx → EReal :=
  fun i => ∑ k : Fin 64, x (ValueIdx.ix2 (i 0) k) * w (ValueIdx.ix2 k (i 1))

/-- A 1 × 64 row added to every row. -/
def AddBias (a : N50000x64.Idx → EReal) (b : N1x64.Idx → EReal) : N50000x64.Idx → EReal :=
  fun i => a i + b (ValueIdx.ix2 (0 : Fin 1) (i 1))

/-- The entrywise square. -/
def Sq (p : N50000x64.Idx → EReal) : N50000x64.Idx → EReal := fun i => p i * p i

/-- Row q of block k / 8 (blocks of 5000 consecutive rows; the eight rows 8t … 8t + 7 of the partial-sum
    array all belong to block t). -/
def blockRow (k : Fin 80) (q : Fin 5000) : Fin 50000 :=
  ⟨5000 * (k.val / 8) + q.val, by have := k.isLt; have := q.isLt; omega⟩

/-- Column sums per block of 5000 rows, each block's sums repeated on 8 consecutive rows. -/
def BlockSums (p : N50000x64.Idx → EReal) : N80x64.Idx → EReal :=
  fun i => ∑ q : Fin 5000, p (ValueIdx.ix2 (blockRow (i 0) q) (i 1))

/-- A length-64 vector as a 1 × 64 array. -/
def row (v : N64.Idx → EReal) : N1x64.Idx → EReal := fun j => v (ValueIdx.ix1 (j 1))

end Cert.Spec

end
-- ==== Proof.Region0.lean ====
/-
  The matrix-product region. Its grid has ten points; point t loads rows 5000·t … 5000·t + 4999 of the left operand
  (a 50000 × 64 array) and the whole right operand (64 × 64), multiplies the two blocks into a zero accumulator, and
  writes the product to the same rows of the result. Over the extended reals the rounding of the operands to the
  narrower format is the identity and the product has no rounding, so the block written at point t is block t of the
  matrix product of the two arrays; the ten blocks tile the 50000 rows, so after the region the result array IS the
  matrix product: entry (r, j) = Σ_k x(r, k) · w(k, j).
-/
import proofs.«103114_j34007551050423_2_alg».proof.Proof.Gen.KernelIdeal.Frame
import proofs.«103114_j34007551050423_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-- The all-zero offsets, however they are spelt. -/
theorem hz : (![0, 0] : Fin 2 → Nat) = fun _ => 0 := funext fun a => by fin_cases a <;> rfl

/-! ## The body's product at an index

The body rounds both loaded blocks to the narrower format (the identity on extended reals) and multiplies them into
a zero accumulator: entry (p, q) is the sum over k of x0(p, k) · x1(k, q). -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the body's product of two blocks. -/
theorem pay_apply (x0 : Vec Ideal S5000x64 .f32) (x1 : Vec Ideal S64x64 .f32) (p : Fin 5000) (q : Fin 64) :
    Gen.k0_pay1 (F := Ideal) x0 x1 (ix2 p q) = ∑ k : Fin 64, x0 (ix2 p k) * x1 (ix2 k q) := by
  unfold Gen.k0_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]
  rfl

variable (V : (c : Dev nD) → (b : Ref sig .tc) → Buf (Elt Ideal) ((c : Thread nD τ).loc b))

/-! ## Where each window's block sits

Grid point t reads rows 5000·t … 5000·t + 4999 of the left operand, the whole right operand, and writes the same
rows of the result. -/

/-- The printed index maps, decided over the ten grid points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point t is entry (5000·t + p, k) of the array. -/
theorem blk_lhs (c : Dev nD) (t : Fin cfg0.N) (p : Fin 5000) (k : Fin 64) (r : Fin 50000)
    (hr : r.val = 5000 * t.val + p.val) :
    (Gen.iblk0 V c 0 t : Vec Ideal S5000x64 .f32) (ix2 p k) = (V c main_arg0 : S50000x64.Idx → EReal) (ix2 r k) := by
  obtain ⟨e0, e1, -⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- The right operand's block at every point is the whole array. -/
theorem blk_rhs (c : Dev nD) (t : Fin cfg0.N) (k : Fin 64) (q : Fin 64) :
    (Gen.iblk0 V c 1 t : Vec Ideal S64x64 .f32) (ix2 k q) = (V c main_arg2 : S64x64.Idx → EReal) (ix2 k q) := by
  obtain ⟨-, -, e2, e3, -⟩ := idx_facts t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- Entry (p, q) of the result's block at point t is entry (5000·t + p, q) of the array. -/
theorem blk_out (t : Fin cfg0.N) (p : Fin 5000) (q : Fin 64) (r : Fin 50000) (hr : r.val = 5000 * t.val + p.val) :
    (((cfg0.win 2).blk t).view.emb (ix2 p q) : S50000x64.Idx) = ix2 r q := by
  obtain ⟨-, -, -, -, e4, e5⟩ := idx_facts t
  funext a; apply Fin.ext
  match a with
  | ⟨0, _⟩ => show win0_2.index t (0 : Fin 2) * 5000 + 1 * p.val = r.val; omega
  | ⟨1, _⟩ => show win0_2.index t (1 : Fin 2) * 64 + 1 * q.val = q.val; omega

/-- The matrix product read at row r, column q. -/
theorem matMul_apply (x : Cert.Spec.N50000x64.Idx → EReal) (w : Cert.Spec.N64x64.Idx → EReal) (r : Fin 50000) (q : Fin 64) :
    Cert.Spec.MatMul x w (ix2 r q) = ∑ k : Fin 64, x (ix2 r k) * w (ix2 k q) := rfl

/-- What point t writes back is block t of the matrix product of the two arrays as the region finds them. -/
theorem flushed_eq (c : Dev nD) (t : Fin cfg0.N) :
    (Gen.dat0 (F := Ideal) V c).flushed 2 t
      = ((cfg0.win 2).blk t).view.read (Elt Ideal) (Cert.Spec.MatMul (V c main_arg0) (V c main_arg2)) := by
  show (cfg0.win 2).cut (grid0.coords t) ((Gen.dat0 V c).after 2 t) = _
  rw [Gen.after0_2]
  unfold Gen.out0_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  have ht : t.val < 10 := t.isLt
  let r : Fin 50000 := ⟨5000 * t.val + p.val, by have := p.isLt; omega⟩
  show Gen.k0_pay1 (Gen.iblk0 V c 0 t) (Gen.iblk0 V c 1 t) (ix2 p q)
    = Cert.Spec.MatMul (V c main_arg0) (V c main_arg2) (((cfg0.win 2).blk t).view.emb (ix2 p q))
  refine (pay_apply (Gen.iblk0 V c 0 t) (Gen.iblk0 V c 1 t) p q).trans ?_
  refine Eq.trans ?_ (congrArg (Cert.Spec.MatMul (V c main_arg0) (V c main_arg2)) (blk_out t p q r rfl).symm)
  refine Eq.trans ?_ (matMul_apply (V c main_arg0) (V c main_arg2) r q).symm
  refine Finset.sum_congr rfl fun k _ => ?_
  rw [blk_lhs V c t p k r rfl, blk_rhs V c t k q]

/-! ## The ten blocks tile the result -/

/-- An index of the result array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v4).slice (win0_2.rect t)).set ↔ _
  rw [View.set_slice_whole, Rect.mem_set_unit]
  exact Iff.rfl

/-- Row r lies in the block of point r / 5000, and every point writes its block back. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [Gen.N_0]; omega⟩, rfl⟩
  obtain ⟨-, -, -, -, e4, e5⟩ := idx_facts t
  refine ⟨t, Gen.flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE RESULT ARRAY after the region: the matrix product of the two input arrays as the region finds them. -/
theorem final (c : Dev nD) :
    (Gen.dat0 (F := Ideal) V c).arrAt 2 cfg0.N = Cert.Spec.MatMul (V c main_arg0) (V c main_arg2) :=
  (Gen.dat0 (F := Ideal) V c).arrAt_eq_of_cover 2 (Cert.Spec.MatMul (V c main_arg0) (V c main_arg2))
    (fun t _ => flushed_eq V c t) cover

end Cert.KernelIdeal.Region0

end
-- ==== Proof.Region1.lean ====
/-
  The combine region. Its grid has ten points; point t loads rows 5000·t … 5000·t + 4999 of a 50000 × 64 array a and
  the whole 1 × 64 row b, and forms the block pre = a + b (the row added to every row). It writes pre to the same rows
  of the first result; it sums pre over the block's 5000 rows, column by column, and writes that vector of 64 column
  sums on each of the rows 8·t … 8·t + 7 of the second result (80 × 64); and it writes the column sums of pre², laid out
  the same way, to the third result. Over the extended reals the sums are exact, so:
    first result  = a with b added to every row;
    second result = row 8·t + s, column j: Σ over the rows r of block t of pre(r, j);
    third result  = row 8·t + s, column j: Σ over the rows r of block t of pre(r, j)².
  The 5000-row blocks tile the 50000 rows and the 8-row blocks tile the 80 rows, so each result array is that function
  everywhere.
-/
import proofs.«103114_j34007551050423_2_alg».proof.Proof.Gen.KernelIdeal.Frame
import proofs.«103114_j34007551050423_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-- The all-zero offsets, however they are spelt. -/
theorem hz : (![0, 0] : Fin 2 → Nat) = fun _ => 0 := funext fun a => by fin_cases a <;> rfl

/-! ## The body's three results at an index

From a 5000 × 64 block x0 and the 1 × 64 row x1 the body forms pre = x0 + x1 (the row added to every row of the block),
the column sums of pre and the column sums of pre², and stores the block pre and each vector of column sums repeated on
8 rows. -/

/-- Entry (p, q) of the block with the row added. -/
theorem pay1_apply (x0 : Vec Ideal S5000x64 .f32) (x1 : Vec Ideal S1x64 .f32) (p : Fin 5000) (q : Fin 64) :
    Gen.k1_pay1 (F := Ideal) x0 x1 (ix2 p q) = x0 (ix2 p q) + x1 (ix2 (0 : Fin 1) q) := by
  unfold Gen.k1_pay1
  simp only [shapeCast_self]
  show x0 (ix2 p q) + broadcastTo S5000x64 x1 broadcasts_S1x64_S5000x64 (ix2 p q) = _
  rw [broadcastTo_1b_ab_apply]

/-- A sum over the 5000 rows of a block, column q. -/
theorem colsum_apply (src : FVec Ideal S5000x64 .f32) (hφ : FKind.Formats .f32)
    (hacc : (0x00000000#32 : BitVec FTy.f32.bits) = FKind.add.neutral .f32 hφ) (q : Fin 64) :
    multiReduction (F := Ideal) .add [0] S64 src 0x00000000#32 reduces_S5000x64_S64 hφ hacc (ix1 q)
      = ∑ k : Fin 5000, src (ix2 k q) := by
  refine (Ideal.multiReduction_add_single src 0x00000000#32 reduces_S5000x64_S64 hφ hacc (ix1 q)).trans ?_
  refine Finset.sum_congr rfl fun k _ => congrArg src ?_
  funext a; apply Fin.ext
  match a with
  | ⟨0, _⟩ => rfl
  | ⟨1, _⟩ => rfl

/-- The column sums of a block, laid out as one row and repeated on 8 rows: entry (s, q) is the sum of column q. -/
theorem rows8_apply (src : FVec Ideal S5000x64 .f32) (hφ : FKind.Formats .f32)
    (hacc : (0x00000000#32 : BitVec FTy.f32.bits) = FKind.add.neutral .f32 hφ) (s : Fin 8) (q : Fin 64) :
    broadcastTo S8x64 (shapeCast S1x64 (shapeCast S1x64
        (multiReduction (F := Ideal) .add [0] S64 src 0x00000000#32 reduces_S5000x64_S64 hφ hacc)
        shapeCasts_S64_S1x64) shapeCasts_S1x64_S1x64) broadcasts_S1x64_S8x64 (ix2 s q)
      = ∑ k : Fin 5000, src (ix2 k q) := by
  rw [broadcastTo_1b_ab_apply, shapeCast_self, shapeCast_a_1a_apply]
  exact colsum_apply src hφ hacc q

/-- Entry (s, q) of the stored column sums of the block with the row added. -/
theorem pay2_apply (x0 : Vec Ideal S5000x64 .f32) (x1 : Vec Ideal S1x64 .f32) (s : Fin 8) (q : Fin 64) :
    Gen.k1_pay2 (F := Ideal) x0 x1 (ix2 s q) = ∑ k : Fin 5000, (x0 (ix2 k q) + x1 (ix2 (0 : Fin 1) q)) := by
  unfold Gen.k1_pay2
  refine (rows8_apply (Gen.k1_pay1 x0 x1) _ _ s q).trans ?_
  exact Finset.sum_congr rfl fun k _ => pay1_apply x0 x1 k q

/-- Entry (s, q) of the stored column sums of the squares. -/
theorem pay3_apply (x0 : Vec Ideal S5000x64 .f32) (x1 : Vec Ideal S1x64 .f32) (s : Fin 8) (q : Fin 64) :
    Gen.k1_pay3 (F := Ideal) x0 x1 (ix2 s q)
      = ∑ k : Fin 5000, (x0 (ix2 k q) + x1 (ix2 (0 : Fin 1) q)) * (x0 (ix2 k q) + x1 (ix2 (0 : Fin 1) q)) := by
  unfold Gen.k1_pay3
  refine (rows8_apply (mulf (Gen.k1_pay1 x0 x1) (Gen.k1_pay1 x0 x1)) _ _ s q).trans ?_
  refine Finset.sum_congr rfl fun k _ => ?_
  rw [mulf_apply, pay1_apply]

variable (V : (c : Dev nD) → (b : Ref sig .tc) → Buf (Elt Ideal) ((c : Thread nD τ).loc b))

/-! ## Where each window's block sits

Grid point t reads rows 5000·t … 5000·t + 4999 of the 50000 × 64 input and the whole 1 × 64 row; it writes the same
rows of the first result and rows 8·t … 8·t + 7 of each 80 × 64 result. -/

/-- The printed index maps, decided over the ten grid points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Entry (p, q) of the input's block at point t is entry (5000·t + p, q) of the array. -/
theorem blk_in (c : Dev nD) (t : Fin cfg1.N) (p : Fin 5000) (q : Fin 64) (r : Fin 50000)
    (hr : r.val = 5000 * t.val + p.val) :
    (Gen.iblk1 V c 0 t : Vec Ideal S5000x64 .f32) (ix2 p q) = (V c main_v54 : S50000x64.Idx → EReal) (ix2 r q) := by
  obtain ⟨e0, e1, -⟩ := idx_facts t
  show V c main_v54 (((cfg1.win 0).blk t).view.emb (ix2 p q)) = V c main_v54 (ix2 r q)
  refine congrArg (V c main_v54) ?_
  funext a; apply Fin.ext
  match a with
  | ⟨0, _⟩ => show win1_0.index t (0 : Fin 2) * 5000 + 1 * p.val = r.val; omega
  | ⟨1, _⟩ => show win1_0.index t (1 : Fin 2) * 64 + 1 * q.val = q.val; omega

/-- The row's block at every point is the whole 1 × 64 array. -/
theorem blk_row (c : Dev nD) (t : Fin cfg1.N) (u : Fin 1) (q : Fin 64) :
    (Gen.iblk1 V c 1 t : Vec Ideal S1x64 .f32) (ix2 u q) = (V c main_v55 : S1x64.Idx → EReal) (ix2 u q) := by
  obtain ⟨-, -, e2, e3, -⟩ := idx_facts t
  show V c main_v55 (((cfg1.win 1).blk t).view.emb (ix2 u q)) = V c main_v55 (ix2 u q)
  refine congrArg (V c main_v55) ?_
  funext a; apply Fin.ext
  match a with
  | ⟨0, _⟩ => show win1_1.index t (0 : Fin 2) * 1 + 1 * u.val = u.val; omega
  | ⟨1, _⟩ => show win1_1.index t (1 : Fin 2) * 64 + 1 * q.val = q.val; omega

/-- Entry (p, q) of the first result's block at point t is entry (5000·t + p, q) of the array. -/
theorem blk_pre (t : Fin cfg1.N) (p : Fin 5000) (q : Fin 64) (r : Fin 50000) (hr : r.val = 5000 * t.val + p.val) :
    (((cfg1.win 2).blk t).view.emb (ix2 p q) : S50000x64.Idx) = ix2 r q := by
  obtain ⟨-, -, -, -, e4, e5, -⟩ := idx_facts t
  funext a; apply Fin.ext
  match a with
  | ⟨0, _⟩ => show win1_2.index t (0 : Fin 2) * 5000 + 1 * p.val = r.val; omega
  | ⟨1, _⟩ => show win1_2.index t (1 : Fin 2) * 64 + 1 * q.val = q.val; omega

/-- Entry (s, q) of the second result's block at point t is entry (8·t + s, q) of the 80 × 64 array. -/
theorem blk_sum (t : Fin cfg1.N) (s : Fin 8) (q : Fin 64) (r : Fin 80) (hr : r.val = 8 * t.val + s.val) :
    (((cfg1.win 3).blk t).view.emb (ix2 s q) : S80x64.Idx) = ix2 r q := by
  obtain ⟨-, -, -, -, -, -, e6, e7, -⟩ := idx_facts t
  funext a; apply Fin.ext
  match a with
  | ⟨0, _⟩ => show win1_3.index t (0 : Fin 2) * 8 + 1 * s.val = r.val; omega
  | ⟨1, _⟩ => show win1_3.index t (1 : Fin 2) * 64 + 1 * q.val = q.val; omega

/-- Entry (s, q) of the third result's block at point t is entry (8·t + s, q) of the 80 × 64 array. -/
theorem blk_sumsq (t : Fin cfg1.N) (s : Fin 8) (q : Fin 64) (r : Fin 80) (hr : r.val = 8 * t.val + s.val) :
    (((cfg1.win 4).blk t).view.emb (ix2 s q) : S80x64.Idx) = ix2 r q := by
  obtain ⟨-, -, -, -, -, -, -, -, e8, e9⟩ := idx_facts t
  funext a; apply Fin.ext
  match a with
  | ⟨0, _⟩ => show win1_4.index t (0 : Fin 2) * 8 + 1 * s.val = r.val; omega
  | ⟨1, _⟩ => show win1_4.index t (1 : Fin 2) * 64 + 1 * q.val = q.val; omega

/-! ## The specification read at an index, and a block entry as an entry of it -/

theorem addBias_apply (a : Cert.Spec.N50000x64.Idx → EReal) (b : Cert.Spec.N1x64.Idx → EReal) (r : Fin 50000) (q : Fin 64) :
    Cert.Spec.AddBias a b (ix2 r q) = a (ix2 r q) + b (ix2 (0 : Fin 1) q) := rfl

theorem blockSums_apply (p : Cert.Spec.N50000x64.Idx → EReal) (k : Fin 80) (q : Fin 64) :
    Cert.Spec.BlockSums p (ix2 k q) = ∑ j : Fin 5000, p (ix2 (Cert.Spec.blockRow k j) q) := rfl

/-- A block entry plus the row's entry is the specification's entry, once each is an entry of its array. -/
theorem pre_of_blocks (a : Cert.Spec.N50000x64.Idx → EReal) (b : Cert.Spec.N1x64.Idx → EReal)
    (x0 : Vec Ideal S5000x64 .f32) (x1 : Vec Ideal S1x64 .f32) (k : Fin 5000) (q : Fin 64) (r : Fin 50000)
    (h0 : x0 (ix2 k q) = a (ix2 r q)) (h1 : x1 (ix2 (0 : Fin 1) q) = b (ix2 (0 : Fin 1) q)) :
    x0 (ix2 k q) + x1 (ix2 (0 : Fin 1) q) = Cert.Spec.AddBias a b (ix2 r q) := by
  rw [h0, h1]; rfl

/-- The same for its square. -/
theorem sq_of_blocks (a : Cert.Spec.N50000x64.Idx → EReal) (b : Cert.Spec.N1x64.Idx → EReal)
    (x0 : Vec Ideal S5000x64 .f32) (x1 : Vec Ideal S1x64 .f32) (k : Fin 5000) (q : Fin 64) (r : Fin 50000)
    (h0 : x0 (ix2 k q) = a (ix2 r q)) (h1 : x1 (ix2 (0 : Fin 1) q) = b (ix2 (0 : Fin 1) q)) :
    (x0 (ix2 k q) + x1 (ix2 (0 : Fin 1) q)) * (x0 (ix2 k q) + x1 (ix2 (0 : Fin 1) q))
      = Cert.Spec.Sq (Cert.Spec.AddBias a b) (ix2 r q) := by
  rw [h0, h1]; rfl

/-- Row k of block ⌊(8·t + s) / 8⌋ = t is row 5000·t + k. -/
theorem blockRow_val (t s : Nat) (hs : s < 8) (r : Fin 80) (hr : r.val = 8 * t + s) (j : Fin 5000) :
    (Cert.Spec.blockRow r j).val = 5000 * t + j.val := by
  show 5000 * (r.val / 8) + j.val = 5000 * t + j.val
  rw [hr]; omega

/-! ## What each point writes back -/

/-- Point t writes block t of the input with the row added to every row. -/
theorem flushed_pre (c : Dev nD) (t : Fin cfg1.N) :
    (Gen.dat1 (F := Ideal) V c).flushed 2 t
      = ((cfg1.win 2).blk t).view.read (Elt Ideal) (Cert.Spec.AddBias (V c main_v54) (V c main_v55)) := by
  show (cfg1.win 2).cut (grid1.coords t) ((Gen.dat1 V c).after 2 t) = _
  rw [Gen.after1_2]
  unfold Gen.out1_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  have ht : t.val < 10 := t.isLt
  let r : Fin 50000 := ⟨5000 * t.val + p.val, by have := p.isLt; omega⟩
  show Gen.k1_pay1 (Gen.iblk1 V c 0 t) (Gen.iblk1 V c 1 t) (ix2 p q)
    = Cert.Spec.AddBias (V c main_v54) (V c main_v55) (((cfg1.win 2).blk t).view.emb (ix2 p q))
  refine (pay1_apply (Gen.iblk1 V c 0 t) (Gen.iblk1 V c 1 t) p q).trans ?_
  refine Eq.trans ?_ (congrArg (Cert.Spec.AddBias (V c main_v54) (V c main_v55)) (blk_pre t p q r rfl).symm)
  exact pre_of_blocks (V c main_v54) (V c main_v55) (Gen.iblk1 V c 0 t) (Gen.iblk1 V c 1 t) p q r
    (blk_in V c t p q r rfl) (blk_row V c t 0 q)

/-- Point t writes, on rows 8·t … 8·t + 7, the column sums of block t of the input with the row added. -/
theorem flushed_sum (c : Dev nD) (t : Fin cfg1.N) :
    (Gen.dat1 (F := Ideal) V c).flushed 3 t
      = ((cfg1.win 3).blk t).view.read (Elt Ideal)
          (Cert.Spec.BlockSums (Cert.Spec.AddBias (V c main_v54) (V c main_v55))) := by
  show (cfg1.win 3).cut (grid1.coords t) ((Gen.dat1 V c).after 3 t) = _
  rw [Gen.after1_3]
  unfold Gen.out1_3
  rw [View.canon_unit_zero hz]
  simp only [View.ld_unit_zero (S := S5000x64) hz, View.ld_unit_zero (S := S1x64) hz]
  funext j
  obtain ⟨s, q, rfl⟩ : ∃ (s : Fin 8) (q : Fin 64), j = ix2 s q := ⟨j 0, j 1, eq_ix2 j⟩
  have ht : t.val < 10 := t.isLt
  let r : Fin 80 := ⟨8 * t.val + s.val, by have := s.isLt; omega⟩
  show Gen.k1_pay2 (Gen.iblk1 V c 0 t) (Gen.iblk1 V c 1 t) (ix2 s q)
    = Cert.Spec.BlockSums (Cert.Spec.AddBias (V c main_v54) (V c main_v55)) (((cfg1.win 3).blk t).view.emb (ix2 s q))
  refine (pay2_apply (Gen.iblk1 V c 0 t) (Gen.iblk1 V c 1 t) s q).trans ?_
  refine Eq.trans ?_ (congrArg (Cert.Spec.BlockSums (Cert.Spec.AddBias (V c main_v54) (V c main_v55)))
    (blk_sum t s q r rfl).symm)
  refine Eq.trans ?_ (blockSums_apply (Cert.Spec.AddBias (V c main_v54) (V c main_v55)) r q).symm
  refine Finset.sum_congr rfl fun k _ => ?_
  exact pre_of_blocks (V c main_v54) (V c main_v55) (Gen.iblk1 V c 0 t) (Gen.iblk1 V c 1 t) k q
    (Cert.Spec.blockRow r k)
    (blk_in V c t k q (Cert.Spec.blockRow r k) (blockRow_val t.val s.val s.isLt r rfl k)) (blk_row V c t 0 q)

/-- Point t writes, on rows 8·t … 8·t + 7, the column sums of the squares of that block. -/
theorem flushed_sumsq (c : Dev nD) (t : Fin cfg1.N) :
    (Gen.dat1 (F := Ideal) V c).flushed 4 t
      = ((cfg1.win 4).blk t).view.read (Elt Ideal)
          (Cert.Spec.BlockSums (Cert.Spec.Sq (Cert.Spec.AddBias (V c main_v54) (V c main_v55)))) := by
  show (cfg1.win 4).cut (grid1.coords t) ((Gen.dat1 V c).after 4 t) = _
  rw [Gen.after1_4]
  unfold Gen.out1_4
  rw [View.canon_unit_zero hz]
  simp only [View.ld_unit_zero (S := S5000x64) hz, View.ld_unit_zero (S := S1x64) hz]
  funext j
  obtain ⟨s, q, rfl⟩ : ∃ (s : Fin 8) (q : Fin 64), j = ix2 s q := ⟨j 0, j 1, eq_ix2 j⟩
  have ht : t.val < 10 := t.isLt
  let r : Fin 80 := ⟨8 * t.val + s.val, by have := s.isLt; omega⟩
  show Gen.k1_pay3 (Gen.iblk1 V c 0 t) (Gen.iblk1 V c 1 t) (ix2 s q)
    = Cert.Spec.BlockSums (Cert.Spec.Sq (Cert.Spec.AddBias (V c main_v54) (V c main_v55)))
        (((cfg1.win 4).blk t).view.emb (ix2 s q))
  refine (pay3_apply (Gen.iblk1 V c 0 t) (Gen.iblk1 V c 1 t) s q).trans ?_
  refine Eq.trans ?_ (congrArg (Cert.Spec.BlockSums (Cert.Spec.Sq (Cert.Spec.AddBias (V c main_v54) (V c main_v55))))
    (blk_sumsq t s q r rfl).symm)
  refine Eq.trans ?_ (blockSums_apply (Cert.Spec.Sq (Cert.Spec.AddBias (V c main_v54) (V c main_v55))) r q).symm
  refine Finset.sum_congr rfl fun k _ => ?_
  exact sq_of_blocks (V c main_v54) (V c main_v55) (Gen.iblk1 V c 0 t) (Gen.iblk1 V c 1 t) k q
    (Cert.Spec.blockRow r k)
    (blk_in V c t k q (Cert.Spec.blockRow r k) (blockRow_val t.val s.val s.isLt r rfl k)) (blk_row V c t 0 q)

/-! ## The blocks tile each result -/

/-- An index of the first result is in point t's block iff each coordinate is in the block's range on its axis. -/
theorem mem_blk_pre (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v58_0).slice (win1_2.rect t)).set ↔ _
  rw [View.set_slice_whole, Rect.mem_set_unit]
  exact Iff.rfl

/-- The same for the second result, whose blocks are 8 rows. -/
theorem mem_blk_sum (t : Fin cfg1.N) (i : S80x64.Idx) :
    i ∈ ((cfg1.win 3).blk t).view.set ↔ ∀ a : Fin 2, win1_3.index t a * S8x64.size a ≤ (i a).val
      ∧ (i a).val < win1_3.index t a * S8x64.size a + S8x64.size a := by
  show i ∈ ((View.whole main_v58_1).slice (win1_3.rect t)).set ↔ _
  rw [View.set_slice_whole, Rect.mem_set_unit]
  exact Iff.rfl

/-- The same for the third result. -/
theorem mem_blk_sumsq (t : Fin cfg1.N) (i : S80x64.Idx) :
    i ∈ ((cfg1.win 4).blk t).view.set ↔ ∀ a : Fin 2, win1_4.index t a * S8x64.size a ≤ (i a).val
      ∧ (i a).val < win1_4.index t a * S8x64.size a + S8x64.size a := by
  show i ∈ ((View.whole main_v58_2).slice (win1_4.rect t)).set ↔ _
  rw [View.set_slice_whole, Rect.mem_set_unit]
  exact Iff.rfl

/-- Row r of the first result lies in the block of point r / 5000, and every point writes its block back. -/
theorem cover_pre (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [Gen.N_1]; omega⟩, rfl⟩
  obtain ⟨-, -, -, -, e4, e5, -⟩ := idx_facts t
  refine ⟨t, Gen.flush1_2 t, ?_⟩
  rw [mem_blk_pre]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- Row r of the second result lies in the block of point r / 8. -/
theorem cover_sum (i : S80x64.Idx) :
    ∃ t : Fin cfg1.N, (cfg1.win 3).flush t = true ∧ i ∈ ((cfg1.win 3).blk t).view.set := by
  have hi0 : (i 0).val < 80 := (i 0).isLt
  have hi1 : (i 1).val < 64 := (i 1).isLt
  obtain ⟨t, ht⟩ : ∃ t : Fin cfg1.N, t.val = (i 0).val / 8 :=
    ⟨⟨(i 0).val / 8, by show (i 0).val / 8 < grid1.N; rw [Gen.N_1]; omega⟩, rfl⟩
  obtain ⟨-, -, -, -, -, -, e6, e7, -⟩ := idx_facts t
  refine ⟨t, Gen.flush1_3 t, ?_⟩
  rw [mem_blk_sum]
  intro a
  match a with
  | ⟨0, _⟩ =>
    show win1_3.index t (0 : Fin 2) * 8 ≤ (i 0).val ∧ (i 0).val < win1_3.index t (0 : Fin 2) * 8 + 8
    omega
  | ⟨1, _⟩ =>
    show win1_3.index t (1 : Fin 2) * 64 ≤ (i 1).val ∧ (i 1).val < win1_3.index t (1 : Fin 2) * 64 + 64
    omega

/-- Row r of the third result lies in the block of point r / 8. -/
theorem cover_sumsq (i : S80x64.Idx) :
    ∃ t : Fin cfg1.N, (cfg1.win 4).flush t = true ∧ i ∈ ((cfg1.win 4).blk t).view.set := by
  have hi0 : (i 0).val < 80 := (i 0).isLt
  have hi1 : (i 1).val < 64 := (i 1).isLt
  obtain ⟨t, ht⟩ : ∃ t : Fin cfg1.N, t.val = (i 0).val / 8 :=
    ⟨⟨(i 0).val / 8, by show (i 0).val / 8 < grid1.N; rw [Gen.N_1]; omega⟩, rfl⟩
  obtain ⟨-, -, -, -, -, -, -, -, e8, e9⟩ := idx_facts t
  refine ⟨t, Gen.flush1_4 t, ?_⟩
  rw [mem_blk_sumsq]
  intro a
  match a with
  | ⟨0, _⟩ =>
    show win1_4.index t (0 : Fin 2) * 8 ≤ (i 0).val ∧ (i 0).val < win1_4.index t (0 : Fin 2) * 8 + 8
    omega
  | ⟨1, _⟩ =>
    show win1_4.index t (1 : Fin 2) * 64 ≤ (i 1).val ∧ (i 1).val < win1_4.index t (1 : Fin 2) * 64 + 64
    omega

/-! ## The three result arrays after the region -/

/-- The first result: the input with the 1 × 64 row added to every row. -/
theorem final_pre (c : Dev nD) :
    (Gen.dat1 (F := Ideal) V c).arrAt 2 cfg1.N = Cert.Spec.AddBias (V c main_v54) (V c main_v55) :=
  (Gen.dat1 (F := Ideal) V c).arrAt_eq_of_cover 2 (Cert.Spec.AddBias (V c main_v54) (V c main_v55))
    (fun t _ => flushed_pre V c t) cover_pre

/-- The second result: per block of 5000 rows, the column sums of the first result, each repeated on 8 rows. -/
theorem final_sum (c : Dev nD) :
    (Gen.dat1 (F := Ideal) V c).arrAt 3 cfg1.N
      = Cert.Spec.BlockSums (Cert.Spec.AddBias (V c main_v54) (V c main_v55)) :=
  (Gen.dat1 (F := Ideal) V c).arrAt_eq_of_cover 3
    (Cert.Spec.BlockSums (Cert.Spec.AddBias (V c main_v54) (V c main_v55)))
    (fun t _ => flushed_sum V c t) cover_sum

/-- The third result: the same sums of the squares of the first result. -/
theorem final_sumsq (c : Dev nD) :
    (Gen.dat1 (F := Ideal) V c).arrAt 4 cfg1.N
      = Cert.Spec.BlockSums (Cert.Spec.Sq (Cert.Spec.AddBias (V c main_v54) (V c main_v55))) :=
  (Gen.dat1 (F := Ideal) V c).arrAt_eq_of_cover 4
    (Cert.Spec.BlockSums (Cert.Spec.Sq (Cert.Spec.AddBias (V c main_v54) (V c main_v55))))
    (fun t _ => flushed_sumsq V c t) cover_sumsq

end Cert.KernelIdeal.Region1

end
-- ==== Proof.FinalizeSpec.lean ====
/-
  The last stage of both programs, stated once over literal shapes and the extended reals, with no
  reference to either program.

  For an array P of 50000 rows by 64 columns and four rows M, Vr, g, b of 64 entries each:
  * `Normed P M Vr g b`   : the normalised, scaled, shifted and rectified entry,
        xn(r, j) = max((P(r, j) − M(j)) · rsqrt(Vr(j) + ε₁) · g(j) + b(j), 0);
  * `Finalize P M Vr g b` : each row of xn divided by its Euclidean norm, the norm bounded below by ε₂,
        out(r, j) = xn(r, j) / max(sqrt(Σ_k xn(r, k)²), ε₂).
  ε₁ and ε₂ stay the 32-bit words both programs carry (about 1e-5 and 1e-12); nothing depends on their
  values. The operations are the extended reals' own: subtraction, product, sum, `max`, and the
  reciprocal square root, square root and quotient with their conventions at zero and at the infinities.
-/
import proofs.«103114_j34007551050423_2_alg».proof.Proof.Spec

noncomputable section

namespace Cert.Spec

open Idealize.ShloMosaic

/-- The rectified batch-normalised entry: max((P(r, j) − M(j)) · rsqrt(Vr(j) + ε₁) · g(j) + b(j), 0). -/
def Normed (P : N50000x64.Idx → EReal) (M Vr g b : N1x64.Idx → EReal) : N50000x64.Idx → EReal :=
  fun i =>
    max ((P i - M (ValueIdx.ix2 (0 : Fin 1) (i 1)))
          * Ideal.rsqrt (Vr (ValueIdx.ix2 (0 : Fin 1) (i 1)) + Ideal.ofBits .f32 0x3727C5AC#32)
          * g (ValueIdx.ix2 (0 : Fin 1) (i 1))
        + b (ValueIdx.ix2 (0 : Fin 1) (i 1))) 0

/-- Each row of the rectified entries divided by its Euclidean norm, the norm bounded below by ε₂. -/
def Finalize (P : N50000x64.Idx → EReal) (M Vr g b : N1x64.Idx → EReal) : N50000x64.Idx → EReal :=
  fun i =>
    Ideal.div (Normed P M Vr g b i)
      (max (Ideal.sqrt (∑ k : Fin 64, Normed P M Vr g b (ValueIdx.ix2 (i 0) k) * Normed P M Vr g b (ValueIdx.ix2 (i 0) k)))
        (Ideal.ofBits .f32 0x2B8CBCCC#32))

end Cert.Spec

end
-- ==== Proof.Region2.lean ====
/-
  The third region of the kernel (normalise, rectify, divide each row by its Euclidean norm), read as one function
  of the five arrays it finds when it is entered.

  The grid has ten points; point t works on rows 5000 t … 5000 t + 4999 of the 50000 × 64 array (one block) and on
  the four 1 × 64 rows whole. On a block the body computes
      xn(p, q)  = max((pre(p, q) − mean(q)) · rsqrt(var(q) + ε₁) · scale(q) + shift(q), 0)
      out(p, q) = xn(p, q) / max(sqrt(Σ_k xn(p, k)²), ε₂),
  where the sum runs over the 64 columns of row p only. Nothing in an output row depends on another row, so block t
  of the output is block t of `Cert.Spec.Finalize` of the whole arrays; the ten blocks are disjoint consecutive row
  ranges that cover the array (row r lies in block r / 5000), hence the array the region leaves is `Finalize`.

  Steps: the body's stored value as a term (`pay_eq`), its layout steps read at an index (`rowsum_apply`,
  `col_apply`, `bcol_apply`), the value at an entry (`xn_apply`, `pay_apply`), the entry against `Finalize` for
  any block that is rows 5000 t … of an array (`point_eq`), each staged block as rows of its array (`blk0_apply`,
  `blk1_eq` … `blk4_eq`), what a point writes back (`flushed_eq`), the cover (`mem_blk`, `cover`), the array (`final`).
-/
import proofs.«103114_j34007551050423_2_alg».proof.Proof.Gen.KernelIdeal.Frame
import proofs.«103114_j34007551050423_2_alg».proof.Proof.FinalizeSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at one entry of a block -/

/-- The rectified entries of a block of 5000 rows, as the body computes them from the block `v0` and the four rows
    `v2` (mean), `v4` (variance), `v6` (scale), `v8` (shift): max((v0 − v2) · rsqrt(v4 + ε₁) · v6 + v8, 0). -/
def xn (v0 : Vec Ideal S5000x64 .f32) (v2 v4 v6 v8 : Vec Ideal S1x64 .f32) : FVec Ideal S5000x64 .f32 :=
  maximumf
    (addf
      (mulf
        (mulf
          (subf (shapeCast S5000x64 v0 shapeCasts_S5000x64_S5000x64)
            (broadcastTo S5000x64 (shapeCast S1x64 v2 shapeCasts_S1x64_S1x64) broadcasts_S1x64_S5000x64))
          (broadcastTo S5000x64
            (rsqrt (addf (shapeCast S1x64 v4 shapeCasts_S1x64_S1x64) (broadcast S1x64 (Scalar.ofBits .f32 0x3727C5AC#32))))
            broadcasts_S1x64_S5000x64))
        (broadcastTo S5000x64 (shapeCast S1x64 v6 shapeCasts_S1x64_S1x64) broadcasts_S1x64_S5000x64))
      (broadcastTo S5000x64 (shapeCast S1x64 v8 shapeCasts_S1x64_S1x64) broadcasts_S1x64_S5000x64))
    (broadcast S5000x64 (Scalar.ofBits .f32 0x00000000#32))

/-- The body's stored value: the rectified entries divided, row by row, by max(sqrt(row sum of squares), ε₂). -/
theorem pay_eq (v0 : Vec Ideal S5000x64 .f32) (v2 v4 v6 v8 : Vec Ideal S1x64 .f32) :
    k2_pay1 (F := Ideal) v0 v2 v4 v6 v8
      = divf (xn v0 v2 v4 v6 v8)
          (broadcastTo S5000x64
            (maximumf
              (sqrt (shapeCast S5000x1
                (multiReduction .add [1] S5000 (mulf (xn v0 v2 v4 v6 v8) (xn v0 v2 v4 v6 v8)) 0x00000000#32
                  reduces_S5000x64_S5000 (.inl rfl) rfl)
                shapeCasts_S5000_S5000x1))
              (broadcast S5000x1 (Scalar.ofBits .f32 0x2B8CBCCC#32)))
            broadcasts_S5000x1_S5000x64) := rfl

/-- A rectified entry at row p, column q of the block. -/
theorem xn_apply (v0 : Vec Ideal S5000x64 .f32) (v2 v4 v6 v8 : Vec Ideal S1x64 .f32) (p : Fin 5000) (q : Fin 64) :
    xn v0 v2 v4 v6 v8 (ix2 p q)
      = max ((v0 (ix2 p q) - v2 (ix2 (0 : Fin 1) q))
              * Ideal.rsqrt (v4 (ix2 (0 : Fin 1) q) + Ideal.ofBits .f32 0x3727C5AC#32)
              * v6 (ix2 (0 : Fin 1) q)
            + v8 (ix2 (0 : Fin 1) q)) 0 := by
  unfold xn
  simp only [shapeCast_self]
  simp only [maximumf_apply, addf_apply, mulf_apply, subf_apply, broadcastTo_1b_ab_apply, broadcast_apply]
  show max ((v0 (ix2 p q) - v2 (ix2 (0 : Fin 1) q))
              * Ideal.rsqrt (v4 (ix2 (0 : Fin 1) q) + Ideal.ofBits .f32 0x3727C5AC#32)
              * v6 (ix2 (0 : Fin 1) q)
            + v8 (ix2 (0 : Fin 1) q)) (Ideal.ofBits .f32 0x00000000#32) = _
  rw [Ideal.ofBits_zero_f32]

/-- The sum along a row of a block: a sum over the 64 columns. -/
theorem rowsum_apply (x : FVec Ideal S5000x64 .f32) (p : Fin 5000) :
    multiReduction (F := Ideal) .add [1] S5000 x 0x00000000#32 reduces_S5000x64_S5000 (.inl rfl) rfl (ix1 p)
      = ∑ k : Fin 64, x (ix2 p k) := by
  refine (Ideal.multiReduction_add_single x 0x00000000#32 reduces_S5000x64_S5000 (.inl rfl) rfl (ix1 p)).trans ?_
  refine Finset.sum_congr rfl fun k _ => congrArg x ?_
  funext a
  apply Fin.ext
  match a with
  | ⟨0, _⟩ => rfl
  | ⟨1, _⟩ => rfl

/-- A vector of 5000 entries read as a column of 5000 rows. -/
theorem col_apply (y : FVec Ideal S5000 .f32) (p : Fin 5000) :
    shapeCast S5000x1 y shapeCasts_S5000_S5000x1 (ix2 p (0 : Fin 1)) = y (ix1 p) :=
  shapeCast_apply y shapeCasts_S5000_S5000x1 (ix2 p (0 : Fin 1)) (ix1 p) (by
    rw [Shape.rowMajor_val_one, Shape.rowMajor_val_two]
    show p.val = p.val * 1 + 0
    omega)

/-- A column of 5000 rows spread over the 64 columns: entry (p, q) is the column's entry p. -/
theorem bcol_apply (y : FVec Ideal S5000x1 .f32) (p : Fin 5000) (q : Fin 64) :
    broadcastTo S5000x64 y broadcasts_S5000x1_S5000x64 (ix2 p q) = y (ix2 p (0 : Fin 1)) :=
  broadcastTo_apply y broadcasts_S5000x1_S5000x64 (ix2 p q) (ix2 p (0 : Fin 1)) fun a => by
    match a with
    | ⟨0, _⟩ => show p.val = if (5000 : Nat) = 1 then 0 else p.val; rw [if_neg (by decide)]
    | ⟨1, _⟩ => show 0 = if (1 : Nat) = 1 then 0 else q.val; rw [if_pos rfl]

/-- The body's stored value at row p, column q of the block: the rectified entry over the bounded row norm. -/
theorem pay_apply (v0 : Vec Ideal S5000x64 .f32) (v2 v4 v6 v8 : Vec Ideal S1x64 .f32) (p : Fin 5000) (q : Fin 64) :
    k2_pay1 (F := Ideal) v0 v2 v4 v6 v8 (ix2 p q)
      = Ideal.div (xn v0 v2 v4 v6 v8 (ix2 p q))
          (max (Ideal.sqrt (∑ k : Fin 64, xn v0 v2 v4 v6 v8 (ix2 p k) * xn v0 v2 v4 v6 v8 (ix2 p k)))
            (Ideal.ofBits .f32 0x2B8CBCCC#32)) := by
  rw [pay_eq]
  refine congrArg (Ideal.div (xn v0 v2 v4 v6 v8 (ix2 p q))) ?_
  refine (bcol_apply _ p q).trans ?_
  refine congrArg (fun z => max (Ideal.sqrt z) (Ideal.ofBits .f32 0x2B8CBCCC#32)) ?_
  refine (col_apply _ p).trans ?_
  exact rowsum_apply _ p

/-! ## From the blocks to the array -/

/-- The block at point t of an array of 50000 rows is rows 5000 t … 5000 t + 4999; the four rows are whole. -/
theorem point_eq (P : S50000x64.Idx → EReal) (M Vr g b : S1x64.Idx → EReal)
    (x0 : Vec Ideal S5000x64 .f32) (x1 x2 x3 x4 : Vec Ideal S1x64 .f32) (t : Nat)
    (h0 : ∀ (y : S5000x64.Idx) (i : S50000x64.Idx), (i 0).val = t * 5000 + (y 0).val → (i 1).val = (y 1).val → x0 y = P i)
    (h1 : x1 = M) (h2 : x2 = Vr) (h3 : x3 = g) (h4 : x4 = b)
    (y : S5000x64.Idx) (i : S50000x64.Idx) (hi0 : (i 0).val = t * 5000 + (y 0).val) (hi1 : (i 1).val = (y 1).val) :
    k2_pay1 (F := Ideal) x0 x1 x2 x3 x4 y = Cert.Spec.Finalize P M Vr g b i := by
  subst h1 h2 h3 h4
  obtain ⟨p, q, rfl⟩ : ∃ (p : Fin 5000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  have hx : ∀ k : Fin 64, xn x0 x1 x2 x3 x4 (ix2 p k) = Cert.Spec.Normed P x1 x2 x3 x4 (ix2 r k) := by
    intro k
    rw [xn_apply, h0 (ix2 p k) (ix2 r k) hi0 rfl]
    rfl
  rw [pay_apply]
  simp only [hx]
  rfl

/-- The zero offsets, spelt as a function. -/
theorem hz : (![0, 0] : Fin 2 → Nat) = fun _ => 0 := funext fun a => by fin_cases a <;> rfl

/-- The index maps over the grid, decided point by point: the 50000-row windows take block t at point t, the four
    1 × 64 rows take block 0 at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Window 0's block at point t is rows 5000 t … of the array it stages. -/
theorem blk0_apply (c : Dev nD) (t : Fin cfg2.N) (y : S5000x64.Idx) (i : S50000x64.Idx)
    (hi0 : (i 0).val = t.val * 5000 + (y 0).val) (hi1 : (i 1).val = (y 1).val) :
    (iblk2 (F := Ideal) V c 0 t : Vec Ideal S5000x64 .f32) y = (V c main_v58_0 : S50000x64.Idx → EReal) i := by
  obtain ⟨e0, e1, -⟩ := idx_facts t
  unfold iblk2
  rw [View.read_apply]
  show (V c main_v58_0 : S50000x64.Idx → EReal) _ = (V c main_v58_0 : S50000x64.Idx → EReal) _
  refine congrArg (V c main_v58_0 : S50000x64.Idx → EReal) ?_
  funext a
  apply Fin.ext
  match a with
  | ⟨0, _⟩ => show win2_0.index t (0 : Fin 2) * 5000 + 1 * (y 0).val = (i 0).val; rw [e0, hi0]; omega
  | ⟨1, _⟩ => show win2_0.index t (1 : Fin 2) * 64 + 1 * (y 1).val = (i 1).val; rw [e1, hi1]; omega

/-- Window 1's block at every point is the whole row it stages. -/
theorem blk1_eq (c : Dev nD) (t : Fin cfg2.N) :
    (iblk2 (F := Ideal) V c 1 t : Vec Ideal S1x64 .f32) = (V c main_v68 : S1x64.Idx → EReal) := by
  have e := idx_facts t
  funext y
  unfold iblk2
  rw [View.read_apply]
  show (V c main_v68 : S1x64.Idx → EReal) _ = (V c main_v68 : S1x64.Idx → EReal) _
  refine congrArg (V c main_v68 : S1x64.Idx → EReal) ?_
  funext a
  apply Fin.ext
  match a with
  | ⟨0, _⟩ => show win2_1.index t (0 : Fin 2) * 1 + 1 * (y 0).val = (y 0).val; rw [e.2.2.1]; omega
  | ⟨1, _⟩ => show win2_1.index t (1 : Fin 2) * 64 + 1 * (y 1).val = (y 1).val; rw [e.2.2.2.1]; omega

/-- Window 2's block at every point is the whole row it stages. -/
theorem blk2_eq (c : Dev nD) (t : Fin cfg2.N) :
    (iblk2 (F := Ideal) V c 2 t : Vec Ideal S1x64 .f32) = (V c main_v74 : S1x64.Idx → EReal) := by
  have e := idx_facts t
  funext y
  unfold iblk2
  rw [View.read_apply]
  show (V c main_v74 : S1x64.Idx → EReal) _ = (V c main_v74 : S1x64.Idx → EReal) _
  refine congrArg (V c main_v74 : S1x64.Idx → EReal) ?_
  funext a
  apply Fin.ext
  match a with
  | ⟨0, _⟩ => show win2_2.index t (0 : Fin 2) * 1 + 1 * (y 0).val = (y 0).val; rw [e.2.2.2.2.1]; omega
  | ⟨1, _⟩ => show win2_2.index t (1 : Fin 2) * 64 + 1 * (y 1).val = (y 1).val; rw [e.2.2.2.2.2.1]; omega

/-- Window 3's block at every point is the whole row it stages. -/
theorem blk3_eq (c : Dev nD) (t : Fin cfg2.N) :
    (iblk2 (F := Ideal) V c 3 t : Vec Ideal S1x64 .f32) = (V c main_v56 : S1x64.Idx → EReal) := by
  have e := idx_facts t
  funext y
  unfold iblk2
  rw [View.read_apply]
  show (V c main_v56 : S1x64.Idx → EReal) _ = (V c main_v56 : S1x64.Idx → EReal) _
  refine congrArg (V c main_v56 : S1x64.Idx → EReal) ?_
  funext a
  apply Fin.ext
  match a with
  | ⟨0, _⟩ => show win2_3.index t (0 : Fin 2) * 1 + 1 * (y 0).val = (y 0).val; rw [e.2.2.2.2.2.2.1]; omega
  | ⟨1, _⟩ => show win2_3.index t (1 : Fin 2) * 64 + 1 * (y 1).val = (y 1).val; rw [e.2.2.2.2.2.2.2.1]; omega

/-- Window 4's block at every point is the whole row it stages. -/
theorem blk4_eq (c : Dev nD) (t : Fin cfg2.N) :
    (iblk2 (F := Ideal) V c 4 t : Vec Ideal S1x64 .f32) = (V c main_v57 : S1x64.Idx → EReal) := by
  have e := idx_facts t
  funext y
  unfold iblk2
  rw [View.read_apply]
  show (V c main_v57 : S1x64.Idx → EReal) _ = (V c main_v57 : S1x64.Idx → EReal) _
  refine congrArg (V c main_v57 : S1x64.Idx → EReal) ?_
  funext a
  apply Fin.ext
  match a with
  | ⟨0, _⟩ => show win2_4.index t (0 : Fin 2) * 1 + 1 * (y 0).val = (y 0).val; rw [e.2.2.2.2.2.2.2.2.1]; omega
  | ⟨1, _⟩ => show win2_4.index t (1 : Fin 2) * 64 + 1 * (y 1).val = (y 1).val; rw [e.2.2.2.2.2.2.2.2.2.1]; omega

/-- What point t writes back to the result array is block t of `Finalize` of the five arrays as the region finds them. -/
theorem flushed_eq (c : Dev nD) (t : Fin cfg2.N) :
    (dat2 (F := Ideal) V c).flushed 5 t
      = ((cfg2.win 5).blk t).view.read (Elt Ideal)
          (Cert.Spec.Finalize (V c main_v58_0) (V c main_v68) (V c main_v74) (V c main_v56) (V c main_v57)) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz]
  have e := idx_facts t
  funext y
  rw [View.read_apply]
  show k2_pay1 (F := Ideal) (iblk2 V c 0 t) (iblk2 V c 1 t) (iblk2 V c 2 t) (iblk2 V c 3 t) (iblk2 V c 4 t) y
      = Cert.Spec.Finalize (V c main_v58_0) (V c main_v68) (V c main_v74) (V c main_v56) (V c main_v57)
          (((cfg2.win 5).blk t).view.emb y)
  exact point_eq (V c main_v58_0) (V c main_v68) (V c main_v74) (V c main_v56) (V c main_v57)
    (iblk2 V c 0 t) (iblk2 V c 1 t) (iblk2 V c 2 t) (iblk2 V c 3 t) (iblk2 V c 4 t) t.val
    (fun y' i h0 h1 => blk0_apply V c t y' i h0 h1) (blk1_eq V c t) (blk2_eq V c t) (blk3_eq V c t) (blk4_eq V c t)
    y (((cfg2.win 5).blk t).view.emb y)
    (by show win2_5.index t (0 : Fin 2) * 5000 + 1 * (y 0).val = t.val * 5000 + (y 0).val
        rw [e.2.2.2.2.2.2.2.2.2.2.1]; omega)
    (by show win2_5.index t (1 : Fin 2) * 64 + 1 * (y 1).val = (y 1).val
        rw [e.2.2.2.2.2.2.2.2.2.2.2]; omega)

/-- An index of the result array is in point t's block iff each coordinate is in the block's range on its axis. -/
theorem mem_blk (t : Fin cfg2.N) (i : S50000x64.Idx) :
    i ∈ ((cfg2.win 5).blk t).view.set
      ↔ ∀ a : Fin 2, win2_5.index t a * S5000x64.size a ≤ (i a).val
          ∧ (i a).val < win2_5.index t a * S5000x64.size a + S5000x64.size a := by
  show i ∈ ((View.whole main_v75).slice (win2_5.rect t)).set ↔ _
  rw [View.set_slice_whole, Rect.mem_set_unit]
  exact Iff.rfl

/-- Row r of the result array lies in the block of point r / 5000: the ten blocks cover the array. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  have ht : (i 0).val / 5000 < cfg2.N := by show (i 0).val / 5000 < grid2.N; rw [hN]; omega
  have e := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e.2.2.2.2.2.2.2.2.2.2.1]
    show (i 0).val / 5000 * 5000 ≤ (i 0).val ∧ (i 0).val < (i 0).val / 5000 * 5000 + 5000
    omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e.2.2.2.2.2.2.2.2.2.2.2]
    omega

/-- The result array after the region: `Finalize` of the five arrays the region reads, as it finds them. -/
theorem final (c : Dev nD) :
    (dat2 (F := Ideal) V c).arrAt 5 cfg2.N
      = Cert.Spec.Finalize (V c main_v58_0) (V c main_v68) (V c main_v74) (V c main_v56) (V c main_v57) :=
  (dat2 V c).arrAt_eq_of_cover 5 _ (fun t _ => flushed_eq V c t) cover

end Cert.KernelIdeal.Region2

end
-- ==== Proof.RefTail.lean ====
/-
  The last stretch of the reference, from its pre-activation array P (50000 × 64), its per-column mean and variance
  vectors and the scale and shift arguments, to its result. The reference lays each length-64 vector out as a 1 × 64 row
  and repeats it on the 50000 rows, so at (r, j) it reads the vector at j; it forms
      xn(r, j) = max((P(r, j) − mean(j)) · rsqrt(var(j) + ε₁) · scale(j) + shift(j), 0),
  the 0 being the zero word; sums xn² along each row starting from the zero word; takes the square root; bounds it below
  by ε₂; and divides xn by it row by row. Over the extended reals each operation is the extended reals' own and the zero
  word is 0, so the result is the specification's last stage applied to P and the four rows, index by index. The mean,
  variance and pre-activation stages themselves are not opened here.
-/
import proofs.«103114_j34007551050423_2_alg».proof.Proof.RefRead
import proofs.«103114_j34007551050423_2_alg».proof.Proof.FinalizeSpec

noncomputable section

namespace Cert.ReferenceIdeal.RefTail

open Cert.ReferenceIdeal Cert.ReferenceIdeal.Gen Cert.ReferenceIdeal.Read Idealize.ShloMosaic
open Idealize.ShloMosaic.ValueIdx

/-! ## The composed index maps

Each of the four rows (mean, variance, scale, shift) is a length-64 vector laid out as a 1 × 64 row and then repeated on
the 50000 rows: read at (r, j) it is the vector at j. The row sum of squares is read back through a 50000 × 1 column:
at (r, j) it is the sum over k of the entries (r, k). -/

theorem idx_mean (i : S50000x64.Idx) : idx_main_v64 (idx_main_v65 i) = ix1 (n := 64) (i 1) :=
  funext fun a => Fin.ext (by match a with | ⟨0, _⟩ => rfl)
theorem idx_rstd (i : S50000x64.Idx) : idx_main_v70 (idx_main_v71 i) = ix1 (n := 64) (i 1) :=
  funext fun a => Fin.ext (by match a with | ⟨0, _⟩ => rfl)
theorem idx_scale (i : S50000x64.Idx) : idx_main_v73 (idx_main_v74 i) = ix1 (n := 64) (i 1) :=
  funext fun a => Fin.ext (by match a with | ⟨0, _⟩ => rfl)
theorem idx_shift (i : S50000x64.Idx) : idx_main_v76 (idx_main_v77 i) = ix1 (n := 64) (i 1) :=
  funext fun a => Fin.ext (by match a with | ⟨0, _⟩ => rfl)
theorem idx_rowk (i : S50000x64.Idx) (k : Fin 64) :
    idx_main_v81 (idx_main_v82 (idx_main_v86 i)) k = ix2 (n0 := 50000) (n1 := 64) (i 0) k :=
  funext fun a => Fin.ext (by match a with | ⟨0, _⟩ => rfl | ⟨1, _⟩ => rfl)

/-- The rectified normalised entry with each 1 × 64 row read as its length-64 vector. -/
theorem normed_rows (P : Cert.Spec.N50000x64.Idx → EReal) (m v g b : Cert.Spec.N64.Idx → EReal)
    (i : Cert.Spec.N50000x64.Idx) :
    Cert.Spec.Normed P (Cert.Spec.row m) (Cert.Spec.row v) (Cert.Spec.row g) (Cert.Spec.row b) i
      = max ((P i - m (ix1 (i 1))) * Ideal.rsqrt (v (ix1 (i 1)) + Ideal.ofBits .f32 0x3727C5AC#32) * g (ix1 (i 1))
          + b (ix1 (i 1))) 0 := rfl

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 x4 x5 : (⟨S64, .f32⟩ : BufTy).Contents (Elt Ideal))

/-! ## The rectified stage

The stage before the row normalisation, read at (r, j): the pre-activation minus the mean at j, times the reciprocal
square root of the variance at j plus ε₁, times the scale at j, plus the shift at j, bounded below by the zero word,
which is the extended real 0. -/

theorem relu_eq (i : S50000x64.Idx) :
    val_main_v79 (F := Ideal) x0 x1 x2 x3 x4 x5 i
      = Cert.Spec.Normed (val_main_v53 (F := Ideal) x0 x1 x2 x3)
          (Cert.Spec.row (val_main_v56 (F := Ideal) x0 x1 x2 x3)) (Cert.Spec.row (val_main_v63 (F := Ideal) x0 x1 x2 x3))
          (Cert.Spec.row x4) (Cert.Spec.row x5) i := by
  rw [normed_rows]
  rw [val_main_v79_apply, val_main_call0_v0_apply, val_main_call0_cst_apply, val_main_v78_apply, val_main_v77_apply,
    val_main_v76_apply, val_main_v75_apply, val_main_v74_apply, val_main_v73_apply, val_main_v72_apply,
    val_main_v71_apply, val_main_v70_apply, val_main_v69_apply, val_main_v68_apply, val_main_v67_apply,
    val_main_cst_14_apply, val_main_v66_apply, val_main_v65_apply, val_main_v64_apply,
    idx_mean, idx_rstd, idx_scale, idx_shift]
  simp only [Ideal.ofBits_def, Ideal.ofBits_zero_f32]
  rfl

/-! ## The row normalisation

The squares of the rectified stage summed along each row, read through the 50000 × 1 column, are the sum over k of the
squared rectified entries (r, k); the sum starts from the zero word, the extended real 0. The result divides the
rectified entry by the larger of the square root of that sum and ε₂. -/

theorem rowsq_eq (i : S50000x64.Idx) :
    ∑ k : Fin 64, val_main_v80 (F := Ideal) x0 x1 x2 x3 x4 x5 (idx_main_v81 (idx_main_v82 (idx_main_v86 i)) k)
      = ∑ k : Fin 64,
          Cert.Spec.Normed (val_main_v53 (F := Ideal) x0 x1 x2 x3)
              (Cert.Spec.row (val_main_v56 (F := Ideal) x0 x1 x2 x3)) (Cert.Spec.row (val_main_v63 (F := Ideal) x0 x1 x2 x3))
              (Cert.Spec.row x4) (Cert.Spec.row x5) (ix2 (i 0) k)
            * Cert.Spec.Normed (val_main_v53 (F := Ideal) x0 x1 x2 x3)
              (Cert.Spec.row (val_main_v56 (F := Ideal) x0 x1 x2 x3)) (Cert.Spec.row (val_main_v63 (F := Ideal) x0 x1 x2 x3))
              (Cert.Spec.row x4) (Cert.Spec.row x5) (ix2 (i 0) k) :=
  Finset.sum_congr rfl fun k _ =>
    (congrArg (val_main_v80 (F := Ideal) x0 x1 x2 x3 x4 x5) (idx_rowk i k)).trans
      ((val_main_v80_apply x0 x1 x2 x3 x4 x5 _).trans
        (congrArg₂ (· * ·) (relu_eq x0 x1 x2 x3 x4 x5 _) (relu_eq x0 x1 x2 x3 x4 x5 _)))

/-- THE REFERENCE'S RESULT from its pre-activation, mean and variance stages and the scale and shift arguments. -/
theorem val_out :
    val_main_v87 (F := Ideal) x0 x1 x2 x3 x4 x5
      = Cert.Spec.Finalize (val_main_v53 (F := Ideal) x0 x1 x2 x3)
          (Cert.Spec.row (val_main_v56 (F := Ideal) x0 x1 x2 x3)) (Cert.Spec.row (val_main_v63 (F := Ideal) x0 x1 x2 x3))
          (Cert.Spec.row x4) (Cert.Spec.row x5) := by
  funext i
  rw [val_main_v87_apply, val_main_v86_apply, val_main_v85_apply, val_main_v84_apply, val_main_cst_16_apply,
    val_main_v83_apply, val_main_v82_apply, val_main_v81_apply, val_main_cst_15_apply, rowsq_eq, relu_eq]
  simp only [Ideal.ofBits_def, Ideal.ofBits_zero_f32, zero_add]
  rfl

end Cert.ReferenceIdeal.RefTail

end
-- ==== Proof.Layout.lean ====
/-
  Two layout identities between the programs' spellings.
  * A length-50000 vector reshaped to a 50000 × 1 column is the same column as the vector broadcast along a
    new trailing unit axis: entry (i, 0) is entry i.
  * A length-64 vector reshaped to 1 × 64, read at (0, j), is the vector at j.
-/
import proofs.«103114_j34007551050423_2_alg».proof.KernelIdeal
import proofs.«103114_j34007551050423_2_alg».proof.ReferenceIdeal
import proofs.«103114_j34007551050423_2_alg».proof.Proof.Gen.KernelIdeal
import proofs.«103114_j34007551050423_2_alg».proof.Proof.Gen.ReferenceIdeal
import proofs.«103114_j34007551050423_2_alg».proof.Proof.Spec
import Idealize.ShloMosaic.Lib.Pipeline.Value
import Idealize.ShloMosaic.Lib.ValueIdx

noncomputable section

namespace Cert.Layout

open Idealize.ShloMosaic
open Cert.ReferenceIdeal Cert.ReferenceIdeal.Gen

theorem col_eq {α : Type} (y : S50000.Idx → α) :
    shapeCast Cert.KernelIdeal.S50000x1 y Cert.KernelIdeal.Gen.shapeCasts_S50000_S50000x1
      = broadcastInDim S50000x1 ![0] bcast_S50000_S50000x1_0 y := by
  funext i
  have h1 : (i 1).val < 1 := (i 1).isLt
  rw [shapeCast_apply y _ i (ValueIdx.ix1 (i 0)) (by
      rewrite [Shape.rowMajor_val_two, Shape.rowMajor_val_one]
      show (i 0).val = (i 0).val * 1 + (i 1).val
      omega)]
  rw [broadcastInDim_apply _ _ y i (ValueIdx.ix1 (i 0)) (fun a => match a with
    | ⟨0, _⟩ => by show (i 0).val = if (50000 : Nat) = 1 then 0 else (i 0).val; rw [if_neg (by decide)])]

theorem row_eq {α : Type} (y : S64.Idx → α) (i : S1x64.Idx) :
    shapeCast Cert.KernelIdeal.S1x64 y Cert.KernelIdeal.Gen.shapeCasts_S64_S1x64 i = y (ValueIdx.ix1 (i 1)) := by
  have h0 : (i 0).val < 1 := (i 0).isLt
  exact shapeCast_apply y _ i (ValueIdx.ix1 (i 1)) (by
      rewrite [Shape.rowMajor_val_two, Shape.rowMajor_val_one]
      show (i 1).val = (i 0).val * 64 + (i 1).val
      omega)

theorem row_eq' (y : (⟨S64, .f32⟩ : BufTy).Contents (Elt Ideal)) :
    shapeCast Cert.KernelIdeal.S1x64 y Cert.KernelIdeal.Gen.shapeCasts_S64_S1x64 = Cert.Spec.row y :=
  funext fun i => row_eq y i

end Cert.Layout

end
-- ==== Proof.BridgeAgg.lean ====
/-
  The kernel's host chain and the reference's stages are one function of the arguments.

  * The degree: the kernel scatters ones into zeros and then adds one, the reference scatters ones into
    ones. At every node both are 1 + (number of edges into the node): (0 + s) + 1 = 1 + s.
  * The self-loop weight dinv² becomes a column in the kernel by a reshape 50000 → 50000 × 1, in the
    reference by a broadcast along a new unit axis: the same column.
  * The kernel gathers the rows of h through a narrower float format and back: the identity here.
  * So the aggregate is the same array, and adding the bias row (a reshape 64 → 1 × 64 in the kernel, two
    broadcasts in the reference) gives the same pre-normalisation array.
  * The matrix product read entry by entry is the reference's contraction.
-/
import proofs.«103114_j34007551050423_2_alg».proof.Proof.Fold
import proofs.«103114_j34007551050423_2_alg».proof.Proof.RefRead
import proofs.«103114_j34007551050423_2_alg».proof.Proof.Spec
import proofs.«103114_j34007551050423_2_alg».proof.Proof.Layout
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Cert.Spec
open Cert.KernelIdeal.Fold (wrapIdx degK aggK srcOf dstOf)
open Cert.ReferenceIdeal Cert.ReferenceIdeal.Gen Cert.ReferenceIdeal.Read

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 x4 x5 : (⟨S64, .f32⟩ : BufTy).Contents (Elt Ideal))

/-! ## The edge list's rows and the wrapped index columns -/

theorem src_eq : srcOf x1 = val_main_v1 (F := Ideal) x1 := rfl
theorem dst_eq : dstOf x1 = val_main_v3 (F := Ideal) x1 := rfl
theorem wrap_v11 : wrapIdx (val_main_v3 (F := Ideal) x1) = val_main_v11 (F := Ideal) x1 := rfl
theorem wrap_v31 : wrapIdx (val_main_v3 (F := Ideal) x1) = val_main_v31 (F := Ideal) x1 := rfl
theorem wrap_v49 : wrapIdx (val_main_v3 (F := Ideal) x1) = val_main_v49 (F := Ideal) x1 := rfl
theorem wrap_v24 : wrapIdx (val_main_v1 (F := Ideal) x1) = val_main_v24 (F := Ideal) x1 := rfl
theorem wrap_v40 : wrapIdx (val_main_v1 (F := Ideal) x1) = val_main_v40 (F := Ideal) x1 := rfl

/-! ## The degree -/

/-- Scattering into an all-zero array and then adding an array C entrywise is scattering into C:
    (0 + s) + c = c + s at every index. -/
theorem scatter_then_add {s si su : Shape} (d : ScatterDims s si su) {w : Nat} (idx : IVec si w)
    (Z C : FVec Ideal s .f32) (U : FVec Ideal su .f32) (hZ : ∀ i, Z i = 0) (i : s.Idx) :
    addf (Host.scatterAdd d Z idx U) C i = Host.scatterAdd d C idx U i := by
  show Ideal.hostScatterAdd d Z idx U i + C i = Ideal.hostScatterAdd d C idx U i
  unfold Ideal.hostScatterAdd
  rw [hZ, zero_add, add_comm]

/-- (0 + number of incoming edges) + 1 = 1 + number of incoming edges, at every node. -/
theorem deg_eq : degK (val_main_v3 (F := Ideal) x1) = val_main_v13 (F := Ideal) x1 := by
  funext i
  unfold degK val_main_v13 val_main_v5 val_main_v12 val_main_cst val_main_cst_1
  rw [wrap_v11]
  refine (scatter_then_add _ _ _ _ _ (fun _ => ?_) i).trans ?_
  · exact Ideal.ofBits_zero_f32
  · rfl

/-! ## The aggregate -/

theorem agg_eq : aggK (val_main_v4 (F := Ideal) x0 x2) (srcOf x1) (dstOf x1) = val_main_v50 (F := Ideal) x0 x1 x2 := by
  rw [src_eq, dst_eq]
  unfold aggK
  rw [deg_eq, Cert.Layout.col_eq]
  rfl

/-! ## The bias row -/

theorem pre_eq : AddBias (val_main_v50 (F := Ideal) x0 x1 x2) (shapeCast Cert.KernelIdeal.S1x64 x3 Cert.KernelIdeal.Gen.shapeCasts_S64_S1x64)
    = val_main_v53 (F := Ideal) x0 x1 x2 x3 := by
  funext i
  rw [val_main_v53_apply, val_main_v52_apply, val_main_v51_apply]
  unfold AddBias
  rw [Cert.Layout.row_eq]
  have e : idx_main_v51 (idx_main_v52 i) = ValueIdx.ix1 (ValueIdx.ix2 (0 : Fin 1) (i 1) 1) :=
    funext fun a => Fin.ext (by match a with | ⟨0, _⟩ => rfl)
  rw [e]
  rfl

/-! ## The matrix product -/

theorem matmul_eq : MatMul x0 x2 = val_main_v4 (F := Ideal) x0 x2 := by
  funext i
  rw [val_main_v4_apply]
  unfold MatMul
  refine Finset.sum_congr rfl fun k _ => ?_
  have el : lidx_main_v4 i k = ValueIdx.ix2 (i 0) k := funext fun a => Fin.ext (by match a with | ⟨0, _⟩ => rfl | ⟨1, _⟩ => rfl)
  have er : ridx_main_v4 i k = ValueIdx.ix2 k (i 1) := funext fun a => Fin.ext (by match a with | ⟨0, _⟩ => rfl | ⟨1, _⟩ => rfl)
  rw [el, er]
  rfl

end Cert.Bridge

end
-- ==== Proof.LibMoments.lean ====
/-
  The batch moments, computed two ways over the extended reals, for a column p of 50000 real numbers.

  One way sums 80 partial sums, each the sum of one block of 5000 consecutive entries, every one of the
  10 blocks occurring 8 times, divides by 8 and then by 50000, and takes the variance as
  max(E[p²] − (E p)², 0). The other sums the 50000 entries directly and takes the variance as the mean of
  the squared deviations. Over real entries the two agree:

    (Σ_k Σ_q p(block k, q)) / 8 = Σ_i p i          (each block is counted 8 times),
    E[p²] − (E p)² = E[(p − E p)²] ≥ 0             (so the maximum with 0 changes nothing).
-/
import Idealize.ShloMosaic.PureOps.Ideal
import proofs.«103114_j34007551050423_2_alg».proof.Proof.Spec
import Mathlib

noncomputable section

namespace Cert.Moments

open Idealize.ShloMosaic

/-! ### The three constants -/

theorem ofBits_zero : Ideal.ofBits .f32 0x00000000#32 = ((0 : ℝ) : EReal) := by
  simp [Ideal.ofBits, Ideal.ieee]

theorem ofBits_eight : Ideal.ofBits .f32 0x41000000#32 = ((8 : ℝ) : EReal) := by
  simp [Ideal.ofBits, Ideal.ieee, -EReal.coe_mul]; norm_num

theorem ofBits_N : Ideal.ofBits .f32 0x47435000#32 = ((50000 : ℝ) : EReal) := by
  simp [Ideal.ofBits, Ideal.ieee, -EReal.coe_mul]; norm_num

/-! ### The two means and the two variances -/

/-- The mean from the 80 block sums: (0 + Σ_k Σ_q p(block k, q)) / 8 / 50000. -/
def MK (p : Fin 50000 → ℝ) : EReal :=
  Ideal.div (Ideal.div (Ideal.ofBits .f32 0x00000000#32
    + ∑ k : Fin 80, ∑ q : Fin 5000, ((p (Cert.Spec.blockRow k q) : ℝ) : EReal))
    (Ideal.ofBits .f32 0x41000000#32)) (Ideal.ofBits .f32 0x47435000#32)

/-- The mean directly: (0 + Σ_i p i) / 50000. -/
def MR (p : Fin 50000 → ℝ) : EReal :=
  Ideal.div (Ideal.ofBits .f32 0x00000000#32 + ∑ i : Fin 50000, ((p i : ℝ) : EReal))
    (Ideal.ofBits .f32 0x47435000#32)

/-- The variance from the 80 block sums of squares: max(E[p²] − (E p)², 0). -/
def VK (p : Fin 50000 → ℝ) : EReal :=
  max (Ideal.div (Ideal.div (Ideal.ofBits .f32 0x00000000#32
    + ∑ k : Fin 80, ∑ q : Fin 5000,
        ((p (Cert.Spec.blockRow k q) : ℝ) : EReal) * ((p (Cert.Spec.blockRow k q) : ℝ) : EReal))
    (Ideal.ofBits .f32 0x41000000#32)) (Ideal.ofBits .f32 0x47435000#32) - MK p * MK p)
    (Ideal.ofBits .f32 0x00000000#32)

/-- The variance directly: the mean of the squared deviations from the mean. -/
def VR (p : Fin 50000 → ℝ) : EReal :=
  Ideal.div (Ideal.ofBits .f32 0x00000000#32
    + ∑ i : Fin 50000, (((p i : ℝ) : EReal) - MR p) * (((p i : ℝ) : EReal) - MR p))
    (Ideal.ofBits .f32 0x47435000#32)

/-! ### Real algebra -/

/-- A finite sum of reals, read in the extended reals, is the sum of the readings. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Row q of the block of k = 8 t + s is entry 5000 t + q. -/
theorem blockRow_prod (t : Fin 10) (s : Fin 8) (q : Fin 5000) :
    Cert.Spec.blockRow (finProdFinEquiv (t, s)) q = (finProdFinEquiv (t, q) : Fin (10 * 5000)) := by
  apply Fin.ext
  have hs := s.isLt
  show 5000 * ((s.val + 8 * t.val) / 8) + q.val = q.val + 5000 * t.val
  have : (s.val + 8 * t.val) / 8 = t.val := by omega
  rw [this]; omega

/-- Each of the 10 blocks occurs 8 times among the 80 block sums. -/
theorem sum_blocks (p : Fin 50000 → ℝ) :
    ∑ k : Fin 80, ∑ q : Fin 5000, p (Cert.Spec.blockRow k q) = 8 * ∑ i : Fin 50000, p i := by
  have h1 : ∑ k : Fin 80, ∑ q : Fin 5000, p (Cert.Spec.blockRow k q)
      = ∑ x : Fin 10 × Fin 8, ∑ q : Fin 5000, p (Cert.Spec.blockRow (finProdFinEquiv x) q) :=
    (Equiv.sum_comp (finProdFinEquiv : Fin 10 × Fin 8 ≃ Fin (10 * 8))
      (fun k : Fin 80 => ∑ q : Fin 5000, p (Cert.Spec.blockRow k q))).symm
  have h2 : ∑ i : Fin 50000, p i = ∑ x : Fin 10 × Fin 5000, p (finProdFinEquiv x) :=
    (Equiv.sum_comp (finProdFinEquiv : Fin 10 × Fin 5000 ≃ Fin (10 * 5000)) p).symm
  rw [h1, h2, Fintype.sum_prod_type, Fintype.sum_prod_type, Finset.mul_sum]
  refine Finset.sum_congr rfl fun t _ => ?_
  simp only [blockRow_prod]
  rw [Finset.sum_const, Finset.card_univ, Fintype.card_fin, nsmul_eq_mul]
  norm_num

/-- E[p²] − (E p)² is the mean of the squared deviations. -/
theorem var_real (p : Fin 50000 → ℝ) (m : ℝ) (hm : m = (∑ i : Fin 50000, p i) * (1 / 50000)) :
    (∑ i : Fin 50000, p i * p i) * (1 / 50000) - m * m
      = (∑ i : Fin 50000, (p i - m) * (p i - m)) * (1 / 50000) := by
  have h : ∑ i : Fin 50000, (p i - m) * (p i - m)
      = (∑ i : Fin 50000, p i * p i) - 2 * m * (∑ i : Fin 50000, p i) + 50000 * (m * m) := by
    have : ∀ i : Fin 50000, (p i - m) * (p i - m) = p i * p i - 2 * m * p i + m * m := fun i => by ring
    simp only [this, Finset.sum_add_distrib, Finset.sum_sub_distrib, ← Finset.mul_sum,
      Finset.sum_const, Finset.card_univ, Fintype.card_fin, nsmul_eq_mul]
    push_cast; ring
  have hS : (∑ i : Fin 50000, p i) = 50000 * m := by rw [hm]; ring
  rw [h, hS]; ring

/-! ### The means -/

theorem MK_eq (p : Fin 50000 → ℝ) :
    MK p = (((∑ i : Fin 50000, p i) * (1 / 50000) : ℝ) : EReal) := by
  unfold MK
  simp only [← coe_sum]
  rw [sum_blocks, ofBits_zero, ofBits_eight, ofBits_N, ← EReal.coe_add,
    Ideal.div_coe (by norm_num), Ideal.div_coe (by norm_num), ← EReal.coe_mul, ← EReal.coe_mul]
  refine congrArg Real.toEReal ?_
  ring

theorem MR_eq (p : Fin 50000 → ℝ) :
    MR p = (((∑ i : Fin 50000, p i) * (1 / 50000) : ℝ) : EReal) := by
  unfold MR
  simp only [← coe_sum]
  rw [ofBits_zero, ofBits_N, ← EReal.coe_add, Ideal.div_coe (by norm_num), ← EReal.coe_mul]
  refine congrArg Real.toEReal ?_
  ring

theorem mean_eq (p : Fin 50000 → ℝ) : MK p = MR p := by rw [MK_eq, MR_eq]

/-! ### The variances -/

theorem VR_eq (p : Fin 50000 → ℝ) :
    VR p = (((∑ i : Fin 50000, (p i - (∑ i : Fin 50000, p i) * (1 / 50000))
        * (p i - (∑ i : Fin 50000, p i) * (1 / 50000))) * (1 / 50000) : ℝ) : EReal) := by
  unfold VR
  rw [MR_eq]
  simp only [← EReal.coe_sub, ← EReal.coe_mul, ← coe_sum]
  rw [ofBits_zero, ofBits_N, ← EReal.coe_add, Ideal.div_coe (by norm_num), ← EReal.coe_mul]
  refine congrArg Real.toEReal ?_
  ring

theorem var_eq (p : Fin 50000 → ℝ) : VK p = VR p := by
  rw [VR_eq]
  unfold VK
  rw [MK_eq]
  simp only [← EReal.coe_mul, ← coe_sum]
  rw [sum_blocks (fun i => p i * p i), ofBits_zero, ofBits_eight, ofBits_N, ← EReal.coe_add,
    Ideal.div_coe (by norm_num), Ideal.div_coe (by norm_num), ← EReal.coe_mul, ← EReal.coe_mul,
    ← EReal.coe_sub]
  have e : (0 + 8 * ∑ i : Fin 50000, p i * p i) * (1 / 8) * (1 / 50000)
      - (∑ i : Fin 50000, p i) * (1 / 50000) * ((∑ i : Fin 50000, p i) * (1 / 50000))
      = (∑ i : Fin 50000, (p i - (∑ i : Fin 50000, p i) * (1 / 50000))
        * (p i - (∑ i : Fin 50000, p i) * (1 / 50000))) * (1 / 50000) := by
    rw [← var_real p _ rfl]; ring
  rw [e]
  apply max_eq_left
  rw [EReal.coe_le_coe_iff]
  apply mul_nonneg _ (by norm_num)
  exact Finset.sum_nonneg fun i _ => mul_self_nonneg _

end Cert.Moments

end
-- ==== Proof.BridgeMoments.lean ====
/-
  The BatchNorm statistics. The kernel's combine region leaves, per block of 5000 rows, the column sums of
  the pre-normalisation array P and of its square, each stored 8 times; its host then takes
      mean = (Σ of the 80 stored rows / 8) / 50000,  var = max((Σ of squares' rows / 8) / 50000 − mean², 0).
  The reference takes mean = (Σ_i P(i, ·)) / 50000 and var = (Σ_i (P(i, ·) − mean)²) / 50000.
  When every entry of P is a real number the two pairs agree, column by column: each block's sum occurs
  8 times, and E[x²] − (E x)² = E[(x − E x)²] ≥ 0 over the reals.
-/
import proofs.«103114_j34007551050423_2_alg».proof.Proof.Fold
import proofs.«103114_j34007551050423_2_alg».proof.Proof.RefRead
import proofs.«103114_j34007551050423_2_alg».proof.Proof.Spec
import proofs.«103114_j34007551050423_2_alg».proof.Proof.LibMoments
import proofs.«103114_j34007551050423_2_alg».proof.Proof.Layout
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Cert.Spec
open Cert.KernelIdeal.Fold (meanK varK)
open Cert.ReferenceIdeal Cert.ReferenceIdeal.Gen Cert.ReferenceIdeal.Read

/-- The kernel's mean-like row at (0, j): ((0 + Σ over the 80 stored rows) / 8) / 50000. -/
theorem meanK_apply (s : FVec Ideal Cert.KernelIdeal.S80x64 .f32) (i : Cert.KernelIdeal.S1x64.Idx) :
    meanK s i = Ideal.div (Ideal.div (Ideal.ofBits .f32 0x00000000#32 + ∑ k : Fin 80, s (ValueIdx.ix2 k (i 1)))
      (Ideal.ofBits .f32 0x41000000#32)) (Ideal.ofBits .f32 0x47435000#32) := by
  unfold meanK
  show Ideal.div (shapeCast Cert.KernelIdeal.S1x64 _ Cert.KernelIdeal.Gen.shapeCasts_S64_S1x64 i) (Ideal.ofBits .f32 0x47435000#32) = _
  rw [Cert.Layout.row_eq]
  show Ideal.div (Ideal.div (Host.reduceAdd (F := Ideal) s (constant (F := Ideal) Cert.KernelIdeal.S_ .f32 0x00000000#32)
      Cert.KernelIdeal.Gen.reducesTo_S80x64_S64_d0 Cert.KernelIdeal.Gen.h_S_ (ValueIdx.ix1 (i 1))) (Ideal.ofBits .f32 0x41000000#32)) _ = _
  simp only [Host.reduceAdd, Ideal.hostReduceAdd_def]
  rw [Ideal.hostReduceAdd_single Cert.KernelIdeal.Gen.reducesTo_S80x64_S64_d0 (by decide)]
  refine congrArg (fun t => Ideal.div (Ideal.div t _) _) (congrArg (_ + ·) (Finset.sum_congr rfl fun k _ => ?_))
  exact congrArg s (funext fun a => Fin.ext (by match a with | ⟨0, _⟩ => rfl | ⟨1, _⟩ => rfl))

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))

/-- The reference's mean at j: (0 + Σ_i P(i, j)) / 50000. -/
theorem mean_ref_apply (j : S64.Idx) :
    val_main_v56 (F := Ideal) x0 x1 x2 x3 j
      = Ideal.div (Ideal.ofBits .f32 0x00000000#32 + ∑ k : Fin 50000, val_main_v53 (F := Ideal) x0 x1 x2 x3 (ValueIdx.ix2 k (j 0)))
          (Ideal.ofBits .f32 0x47435000#32) := by
  have e : ∀ k : Fin 50000, idx_main_v54 j k = ValueIdx.ix2 k (j 0) := fun k =>
    funext fun a => Fin.ext (by match a with | ⟨0, _⟩ => rfl | ⟨1, _⟩ => rfl)
  rw [val_main_v56_apply, val_main_v54_apply]
  simp only [e]
  rfl

/-- The reference's variance at j: (0 + Σ_i (P(i, j) − mean(j))²) / 50000. -/
theorem var_ref_apply (j : S64.Idx) :
    val_main_v63 (F := Ideal) x0 x1 x2 x3 j
      = Ideal.div (Ideal.ofBits .f32 0x00000000#32 + ∑ k : Fin 50000,
            (val_main_v53 (F := Ideal) x0 x1 x2 x3 (ValueIdx.ix2 k (j 0)) - val_main_v56 (F := Ideal) x0 x1 x2 x3 j)
              * (val_main_v53 (F := Ideal) x0 x1 x2 x3 (ValueIdx.ix2 k (j 0)) - val_main_v56 (F := Ideal) x0 x1 x2 x3 j))
          (Ideal.ofBits .f32 0x47435000#32) := by
  have e : ∀ k : Fin 50000, idx_main_v61 j k = ValueIdx.ix2 k (j 0) := fun k =>
    funext fun a => Fin.ext (by match a with | ⟨0, _⟩ => rfl | ⟨1, _⟩ => rfl)
  have e' : ∀ k : Fin 50000, idx_main_v57 (idx_main_v58 (idx_main_v61 j k)) = j := fun k =>
    funext fun a => Fin.ext (by match a with | ⟨0, _⟩ => rfl)
  -- one summand: the squared deviation of P(k, j) from the mean at j
  have hs : ∑ k : Fin 50000, val_main_v60 (F := Ideal) x0 x1 x2 x3 (idx_main_v61 j k)
      = ∑ k : Fin 50000,
          (val_main_v53 (F := Ideal) x0 x1 x2 x3 (ValueIdx.ix2 k (j 0)) - val_main_v56 (F := Ideal) x0 x1 x2 x3 j)
            * (val_main_v53 (F := Ideal) x0 x1 x2 x3 (ValueIdx.ix2 k (j 0)) - val_main_v56 (F := Ideal) x0 x1 x2 x3 j) :=
    Finset.sum_congr rfl fun k _ => by
      rw [val_main_v60_apply, val_main_v59_apply, val_main_v58_apply, val_main_v57_apply, e' k, e k] <;> rfl
  rw [val_main_v63_apply, val_main_v61_apply, hs] <;> rfl

variable (hP : IsReal (val_main_v53 (F := Ideal) x0 x1 x2 x3))
include hP

/-- The means agree. -/
theorem mean_bridge : meanK (BlockSums (val_main_v53 (F := Ideal) x0 x1 x2 x3)) = Cert.Spec.row (val_main_v56 (F := Ideal) x0 x1 x2 x3) := by
  funext i
  choose r hr using hP
  have hK : meanK (BlockSums (val_main_v53 (F := Ideal) x0 x1 x2 x3)) i = Cert.Moments.MK (fun k => r (ValueIdx.ix2 k (i 1))) := by
    rw [meanK_apply]
    unfold Cert.Moments.MK BlockSums
    simp only [hr]
  have hR : Cert.Spec.row (val_main_v56 (F := Ideal) x0 x1 x2 x3) i = Cert.Moments.MR (fun k => r (ValueIdx.ix2 k (i 1))) := by
    unfold Cert.Spec.row
    rw [mean_ref_apply]
    unfold Cert.Moments.MR
    simp only [hr]
  rw [hK, hR, Cert.Moments.mean_eq]

/-- The variances agree. -/
theorem var_bridge : varK (BlockSums (val_main_v53 (F := Ideal) x0 x1 x2 x3)) (BlockSums (Sq (val_main_v53 (F := Ideal) x0 x1 x2 x3)))
    = Cert.Spec.row (val_main_v63 (F := Ideal) x0 x1 x2 x3) := by
  funext i
  choose r hr using hP
  have hR0 : val_main_v56 (F := Ideal) x0 x1 x2 x3 (ValueIdx.ix1 (i 1)) = Cert.Moments.MR (fun k => r (ValueIdx.ix2 k (i 1))) := by
    rw [mean_ref_apply]
    unfold Cert.Moments.MR
    simp only [hr]
  have hK : varK (BlockSums (val_main_v53 (F := Ideal) x0 x1 x2 x3)) (BlockSums (Sq (val_main_v53 (F := Ideal) x0 x1 x2 x3))) i
      = Cert.Moments.VK (fun k => r (ValueIdx.ix2 k (i 1))) := by
    unfold varK
    show max (meanK _ i - meanK _ i * meanK _ i) (Ideal.ofBits .f32 0x00000000#32) = _
    rw [meanK_apply, meanK_apply]
    unfold Cert.Moments.VK Cert.Moments.MK BlockSums Sq
    simp only [hr]
  have hR : Cert.Spec.row (val_main_v63 (F := Ideal) x0 x1 x2 x3) i = Cert.Moments.VR (fun k => r (ValueIdx.ix2 k (i 1))) := by
    unfold Cert.Spec.row
    rw [var_ref_apply, hR0]
    unfold Cert.Moments.VR
    simp only [hr]
  rw [hK, hR, Cert.Moments.var_eq]

end Cert.Bridge

end
-- ==== Proof.LibReal.lean ====
/-
  Closure lemmas for "every entry is a real number" (`Cert.Spec.IsReal`) under the array operations of a
  host program read at the extended reals (`F := Ideal`), where a float is an element of `[-∞, +∞]` and
  every operation is its exact textbook one.

  The extended reals are not a ring: `⊤ + ⊥`, `0 · ⊤` have conventional values, and sums do not reassociate
  through them. A value proof over them therefore first shows that the arrays it handles hold real numbers only,
  and computes in `ℝ` from there. This file supplies that first step, operation by operation:

  * `IsPos f`                    : every entry of `f` is a positive real number (`IsPos.isReal`: so a real one);
  * `exists_real_sum`, `exists_nonneg_real_sum` : a finite sum of (nonnegative) reals is a (nonnegative) real;
  * `isReal_comp`, `isPos_comp` : a re-indexing (precomposition with any index map) of a real array is real —
    in particular `isReal_broadcastInDim` / `isPos_broadcastInDim` (`stablehlo.broadcast_in_dim`) and
    `isReal_gather` / `isPos_gather` (`stablehlo.gather`: each result element is one operand element);
  * `isReal_addf`, `isReal_mulf`, `isPos_mulf` : the elementwise sum and product;
  * `isReal_scatterAdd`, `isPos_scatterAdd` : the accumulating scatter — each operand element plus the finite
    sum of the update elements that land on it;
  * `isReal_dotGeneral` : `stablehlo.dot_general` — each element a finite sum of products;
  * `ofBits_one_f32`, `isPos_constant_one` : the f32 pattern `0x3F800000` is the number 1, so its splat is positive;
  * `isPos_rsqrt` : the reciprocal square root of a positive real `r` is the positive real `(√r)⁻¹` (at `0`, at a
    negative number and at `±∞` it is not a positive real, which is why positivity is tracked).
-/
import Idealize.ShloMosaic.PureOps.Ideal
import Idealize.ShloMosaic.PureOps.Ideal.Laws
import Idealize.ShloMosaic.Lib.ValueIdx
import proofs.«103114_j34007551050423_2_alg».proof.Proof.Spec

noncomputable section

namespace Cert.Real

open Idealize.ShloMosaic Cert.Spec

/-- Every entry is a positive real number. -/
def IsPos {ι : Type} (f : ι → EReal) : Prop := ∀ i, ∃ r : ℝ, 0 < r ∧ f i = (r : EReal)

/-- A positive real is a real. -/
theorem IsPos.isReal {ι : Type} {f : ι → EReal} (h : IsPos f) : IsReal f := fun i => by
  obtain ⟨r, _, hr⟩ := h i
  exact ⟨r, hr⟩

/-! ## Finite sums -/

/-- A finite sum of real numbers, taken in the extended reals, is the real number that is their sum. -/
theorem exists_real_sum {α : Type} (S : Finset α) (f : α → EReal) (h : ∀ j ∈ S, ∃ r : ℝ, f j = (r : EReal)) :
    ∃ r : ℝ, ∑ j ∈ S, f j = (r : EReal) := by
  induction S using Finset.cons_induction with
  | empty => exact ⟨0, by rw [Finset.sum_empty, EReal.coe_zero]⟩
  | cons a S ha ih =>
    obtain ⟨r, hr⟩ := h a (Finset.mem_cons_self a S)
    obtain ⟨t, ht⟩ := ih fun j hj => h j (Finset.mem_cons_of_mem hj)
    exact ⟨r + t, by rw [Finset.sum_cons, hr, ht, EReal.coe_add]⟩

/-- A finite sum of nonnegative real numbers is a nonnegative real number. -/
theorem exists_nonneg_real_sum {α : Type} (S : Finset α) (f : α → EReal)
    (h : ∀ j ∈ S, ∃ r : ℝ, 0 ≤ r ∧ f j = (r : EReal)) : ∃ r : ℝ, 0 ≤ r ∧ ∑ j ∈ S, f j = (r : EReal) := by
  induction S using Finset.cons_induction with
  | empty => exact ⟨0, le_refl 0, by rw [Finset.sum_empty, EReal.coe_zero]⟩
  | cons a S ha ih =>
    obtain ⟨r, hr0, hr⟩ := h a (Finset.mem_cons_self a S)
    obtain ⟨t, ht0, ht⟩ := ih fun j hj => h j (Finset.mem_cons_of_mem hj)
    exact ⟨r + t, add_nonneg hr0 ht0, by rw [Finset.sum_cons, hr, ht, EReal.coe_add]⟩

/-! ## Re-indexings: each result element is one operand element -/

theorem isReal_comp {ι κ : Type} {f : ι → EReal} (h : IsReal f) (g : κ → ι) : IsReal fun j => f (g j) :=
  fun j => h (g j)

theorem isPos_comp {ι κ : Type} {f : ι → EReal} (h : IsPos f) (g : κ → ι) : IsPos fun j => f (g j) :=
  fun j => h (g j)

/-- `stablehlo.broadcast_in_dim` reads one operand element per result element. -/
theorem isReal_broadcastInDim {s t : Shape} (dims : Fin s.rank → Fin t.rank) (h : s.BroadcastsInDim t dims)
    {x : s.Idx → EReal} (hx : IsReal x) : IsReal (broadcastInDim t dims h x) :=
  fun _ => hx _

theorem isPos_broadcastInDim {s t : Shape} (dims : Fin s.rank → Fin t.rank) (h : s.BroadcastsInDim t dims)
    {x : s.Idx → EReal} (hx : IsPos x) : IsPos (broadcastInDim t dims h x) :=
  fun _ => hx _

/-- `stablehlo.gather` reads one operand element per result element, whatever the indices hold. -/
theorem isReal_gather {s si t : Shape} {w : Nat} (d : GatherDims s si t) {x : s.Idx → EReal} (idx : IVec si w)
    (hx : IsReal x) : IsReal (Host.gather d x idx) :=
  fun _ => hx _

theorem isPos_gather {s si t : Shape} {w : Nat} (d : GatherDims s si t) {x : s.Idx → EReal} (idx : IVec si w)
    (hx : IsPos x) : IsPos (Host.gather d x idx) :=
  fun _ => hx _

/-! ## Elementwise sum and product -/

theorem isReal_addf {s : Shape} {φ : FTy} {x y : FVec Ideal s φ} (hx : IsReal x) (hy : IsReal y) :
    IsReal (addf (F := Ideal) x y) := fun i => by
  obtain ⟨a, ha⟩ := hx i
  obtain ⟨b, hb⟩ := hy i
  exact ⟨a + b, by show x i + y i = _; rw [ha, hb, EReal.coe_add]⟩

theorem isReal_mulf {s : Shape} {φ : FTy} {x y : FVec Ideal s φ} (hx : IsReal x) (hy : IsReal y) :
    IsReal (mulf (F := Ideal) x y) := fun i => by
  obtain ⟨a, ha⟩ := hx i
  obtain ⟨b, hb⟩ := hy i
  exact ⟨a * b, by show x i * y i = _; rw [ha, hb, EReal.coe_mul]⟩

theorem isPos_mulf {s : Shape} {φ : FTy} {x y : FVec Ideal s φ} (hx : IsPos x) (hy : IsPos y) :
    IsPos (mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

/-! ## The accumulating scatter: an operand element plus the updates that land on it -/

theorem isReal_scatterAdd {s si u : Shape} {φ : FTy} {w : Nat} (d : ScatterDims s si u) {x : FVec Ideal s φ}
    (idx : IVec si w) {upd : FVec Ideal u φ} (hx : IsReal x) (hu : IsReal upd) :
    IsReal (Host.scatterAdd (F := Ideal) d x idx upd) := fun i => by
  have key : ∀ S : Finset u.Idx, ∃ r : ℝ, x i + ∑ j ∈ S, upd j = (r : EReal) := fun S => by
    obtain ⟨a, ha⟩ := hx i
    obtain ⟨t, ht⟩ := exists_real_sum S upd fun j _ => hu j
    exact ⟨a + t, by rw [ha, ht, EReal.coe_add]⟩
  exact key _

/-- Positive operand elements and positive updates (a count of ones onto ones, say) give positive sums. -/
theorem isPos_scatterAdd {s si u : Shape} {φ : FTy} {w : Nat} (d : ScatterDims s si u) {x : FVec Ideal s φ}
    (idx : IVec si w) {upd : FVec Ideal u φ} (hx : IsPos x) (hu : IsPos upd) :
    IsPos (Host.scatterAdd (F := Ideal) d x idx upd) := fun i => by
  have key : ∀ S : Finset u.Idx, ∃ r : ℝ, 0 < r ∧ x i + ∑ j ∈ S, upd j = (r : EReal) := fun S => by
    obtain ⟨a, ha0, ha⟩ := hx i
    obtain ⟨t, ht0, ht⟩ := exists_nonneg_real_sum S upd fun j _ => by
      obtain ⟨b, hb0, hb⟩ := hu j
      exact ⟨b, hb0.le, hb⟩
    exact ⟨a + t, add_pos_of_pos_of_nonneg ha0 ht0, by rw [ha, ht, EReal.coe_add]⟩
  exact key _

/-! ## The contraction: a finite sum of products -/

theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral (F := Ideal) d prec l r) := fun j => by
  obtain ⟨t, ht⟩ := exists_real_sum Finset.univ (fun k : d.contr.Idx => l (d.lhsIdx j k) * r (d.rhsIdx j k))
    fun k _ => by
      obtain ⟨a, ha⟩ := hl (d.lhsIdx j k)
      obtain ⟨b, hb⟩ := hr (d.rhsIdx j k)
      exact ⟨a * b, by rw [ha, hb, EReal.coe_mul]⟩
  exact ⟨t, (Ideal.dotGeneral_apply d prec .single l r j).trans ht⟩

/-! ## The constant one, and the reciprocal square root of positive numbers -/

/-- The f32 pattern `0x3F800000` denotes the number 1. -/
theorem ofBits_one_f32 : Ideal.ofBits .f32 0x3F800000#32 = 1 := by
  simp [Ideal.ofBits, Ideal.ieee, -EReal.coe_mul]; norm_num

theorem isPos_constant_one (s : Shape) : IsPos (constant (F := Ideal) s .f32 0x3F800000#32) := fun _ =>
  ⟨1, one_pos, by show Ideal.ofBits .f32 0x3F800000#32 = _; rw [ofBits_one_f32, EReal.coe_one]⟩

/-- At a positive real `r` the reciprocal square root is the positive real `(√r)⁻¹`. -/
theorem isPos_rsqrt {s : Shape} {φ : FTy} {x : FVec Ideal s φ} (hx : IsPos x) :
    IsPos (Host.rsqrt (F := Ideal) x) := fun i => by
  obtain ⟨r, hr, hxi⟩ := hx i
  refine ⟨(Real.sqrt r)⁻¹, inv_pos.mpr (Real.sqrt_pos.mpr hr), ?_⟩
  show Ideal.rsqrt (x i) = _
  rw [hxi, Ideal.rsqrt_coe, if_neg (not_lt.mpr hr.le), if_neg hr.ne']

end Cert.Real

end
-- ==== Proof.PreReal.lean ====
/-
  The reference's aggregated features plus bias — its stage `val_main_v53`, the array whose column means and
  variances the batch normalisation takes — hold real numbers only, whenever the features `x`, the weights `W`
  and the bias `b` do. The edge list needs no hypothesis: it only decides WHICH elements are read and summed.

  The stage is, in the reference's order:
    h      = x · W                                   (a finite sum of products of reals)
    deg    = 1 + (number of edges into each node)    (a scatter of ones onto ones: a positive real)
    dinv   = 1 / √deg                                (of a positive real: a positive real)
    self   = h · (dinv · dinv)                       (broadcast along the feature axis)
    norm   = dinv[src] · dinv[dst]                   (two gathers and a product)
    msg    = norm · h[src]                           (a gather, a broadcast and a product)
    agg    = self with msg scattered and added at dst (an element plus a finite sum of reals)
    pre    = agg + b                                 (b broadcast along the rows)
  and each line keeps the entries real by the closure lemma for its operation.
-/
import proofs.«103114_j34007551050423_2_alg».proof.Proof.RefRead
import proofs.«103114_j34007551050423_2_alg».proof.Proof.Spec
import proofs.«103114_j34007551050423_2_alg».proof.Proof.LibReal

noncomputable section

namespace Cert.ReferenceIdeal.PreReal

open Idealize.ShloMosaic Cert.ReferenceIdeal Cert.ReferenceIdeal.Read Cert.Spec Cert.Real

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))

/-- h = x · W. -/
theorem v4_real (h0 : IsReal x0) (h2 : IsReal x2) : IsReal (val_main_v4 (F := Ideal) x0 x2) := by
  unfold val_main_v4
  exact isReal_dotGeneral _ _ h0 h2

/-- The splat of ones the degree starts from. -/
theorem v5_pos : IsPos (val_main_v5 (F := Ideal)) := by
  unfold val_main_v5 val_main_cst
  exact isPos_broadcastInDim _ _ (isPos_constant_one _)

/-- The splat of ones added per edge. -/
theorem v12_pos : IsPos (val_main_v12 (F := Ideal)) := by
  unfold val_main_v12 val_main_cst_1
  exact isPos_broadcastInDim _ _ (isPos_constant_one _)

/-- deg: one plus a one for every edge into the node — a positive real. -/
theorem v13_pos : IsPos (val_main_v13 (F := Ideal) x1) := by
  unfold val_main_v13
  exact isPos_scatterAdd _ _ v5_pos v12_pos

/-- dinv = 1 / √deg. -/
theorem v14_pos : IsPos (val_main_v14 (F := Ideal) x1) := by
  unfold val_main_v14
  exact isPos_rsqrt (v13_pos x1)

/-- dinv · dinv. -/
theorem v15_real : IsReal (val_main_v15 (F := Ideal) x1) := by
  unfold val_main_v15
  exact isReal_mulf (v14_pos x1).isReal (v14_pos x1).isReal

theorem v16_real : IsReal (val_main_v16 (F := Ideal) x1) := by
  unfold val_main_v16
  exact isReal_broadcastInDim _ _ (v15_real x1)

theorem v17_real : IsReal (val_main_v17 (F := Ideal) x1) := by
  unfold val_main_v17
  exact isReal_broadcastInDim _ _ (v16_real x1)

/-- self = h · (dinv · dinv). -/
theorem v18_real (h0 : IsReal x0) (h2 : IsReal x2) : IsReal (val_main_v18 (F := Ideal) x0 x1 x2) := by
  unfold val_main_v18
  exact isReal_mulf (v4_real x0 x2 h0 h2) (v17_real x1)

/-- dinv[src]. -/
theorem v25_real : IsReal (val_main_v25 (F := Ideal) x1) := by
  unfold val_main_v25
  exact isReal_gather _ _ (v14_pos x1).isReal

/-- dinv[dst]. -/
theorem v32_real : IsReal (val_main_v32 (F := Ideal) x1) := by
  unfold val_main_v32
  exact isReal_gather _ _ (v14_pos x1).isReal

/-- norm = dinv[src] · dinv[dst]. -/
theorem v33_real : IsReal (val_main_v33 (F := Ideal) x1) := by
  unfold val_main_v33
  exact isReal_mulf (v25_real x1) (v32_real x1)

theorem v34_real : IsReal (val_main_v34 (F := Ideal) x1) := by
  unfold val_main_v34
  exact isReal_broadcastInDim _ _ (v33_real x1)

/-- h[src]. -/
theorem v41_real (h0 : IsReal x0) (h2 : IsReal x2) : IsReal (val_main_v41 (F := Ideal) x0 x1 x2) := by
  unfold val_main_v41
  exact isReal_gather _ _ (v4_real x0 x2 h0 h2)

theorem v42_real : IsReal (val_main_v42 (F := Ideal) x1) := by
  unfold val_main_v42
  exact isReal_broadcastInDim _ _ (v34_real x1)

/-- msg = norm · h[src]. -/
theorem v43_real (h0 : IsReal x0) (h2 : IsReal x2) : IsReal (val_main_v43 (F := Ideal) x0 x1 x2) := by
  unfold val_main_v43
  exact isReal_mulf (v42_real x1) (v41_real x0 x1 x2 h0 h2)

/-- agg: self plus the messages that arrive at the node. -/
theorem v50_real (h0 : IsReal x0) (h2 : IsReal x2) : IsReal (val_main_v50 (F := Ideal) x0 x1 x2) := by
  unfold val_main_v50
  exact isReal_scatterAdd _ _ (v18_real x0 x1 x2 h0 h2) (v43_real x0 x1 x2 h0 h2)

theorem v51_real (h3 : IsReal x3) : IsReal (val_main_v51 (F := Ideal) x3) := by
  unfold val_main_v51
  exact isReal_broadcastInDim _ _ h3

theorem v52_real (h3 : IsReal x3) : IsReal (val_main_v52 (F := Ideal) x3) := by
  unfold val_main_v52
  exact isReal_broadcastInDim _ _ (v51_real x3 h3)

/-- pre = agg + b: every entry is a real number. -/
theorem pre_real (h0 : IsReal x0) (h2 : IsReal x2) (h3 : IsReal x3) :
    IsReal (val_main_v53 (F := Ideal) x0 x1 x2 x3) := by
  unfold val_main_v53
  exact isReal_addf (v50_real x0 x1 x2 h0 h2) (v52_real x3 h3)

end Cert.ReferenceIdeal.PreReal

end
-- ==== Proof.InputsReal.lean ====
/-
  From the finiteness precondition to real inputs.

  The precondition is the conjunction, over the five float argument arrays, of "every entry x has
  |x| < +∞". Over the extended reals |x| = max(x, −x) is +∞ exactly when x is +∞ or −∞, so every entry of
  each array is a real number.
-/
import proofs.«103114_j34007551050423_2_alg».proof.Pre_finite_inputs
import proofs.«103114_j34007551050423_2_alg».proof.Proof.Spec
import Idealize.ShloMosaic.PureOps.Ideal
import Idealize.ShloMosaic.Lib.ReduceAll

noncomputable section

namespace Cert.InputsReal

open Idealize.ShloMosaic Cert.Pre_finite_inputs

/-- The rank-0 shape has one index. -/
instance : Subsingleton S_.Idx := ⟨fun a b => funext fun d => d.elim0⟩

/-- The pattern of +∞. -/
theorem ofBits_inf : Ideal.ofBits .f32 0x7F800000#32 = ⊤ := by
  simp [Ideal.ofBits, Ideal.ieee]

/-- If |x| < +∞ then x is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array: if the comparison of |x| with the splat of +∞ is 1 at every index, every entry is real. -/
theorem real_of_cmp {s : Shape} (x : FVec Ideal s .f32) (hb : S_.BroadcastsInDim s (![] : Fin 0 → Fin s.rank))
    (i : s.Idx)
    (h : cmpf .olt (Host.absf x) (broadcastInDim s ![] hb (constant (F := Ideal) S_ .f32 0x7F800000#32)) i = 1#1) :
    ∃ r : ℝ, x i = (r : EReal) :=
  real_of_abs_lt (x i) h

theorem of_pre [Facts] (x0 : FVec Ideal S50000x64 .f32) (x1 : IVec S2x800000 32) (x2 : FVec Ideal S64x64 .f32)
    (x3 x4 x5 : FVec Ideal S64 .f32)
    (h : fn (F := Ideal) x0 x1 x2 x3 x4 x5 = fun _ => 1#1) :
    Cert.Spec.IsReal x0 ∧ Cert.Spec.IsReal x2 ∧ Cert.Spec.IsReal x3 := by
  have h0 := congrFun h ValueIdx.ix0
  dsimp only [fn, fn_part1] at h0
  simp only [andi, IntOp.andi_eq_one] at h0
  obtain ⟨⟨⟨⟨h3, h7⟩, h12⟩, -⟩, -⟩ := h0
  refine ⟨fun i => ?_, fun i => ?_, fun i => ?_⟩
  · exact real_of_cmp x0 _ i (Host.reduce_andi_all _ _ _ _ _ h3 i)
  · exact real_of_cmp x2 _ i (Host.reduce_andi_all _ _ _ _ _ h7 i)
  · exact real_of_cmp x3 _ i (Host.reduce_andi_all _ _ _ _ _ h12 i)

end Cert.InputsReal

end
-- ==== Proof.KernelValue.lean ====
/-
  The idealized kernel's result as the reference's last stage.

  Reading the fold of buffer contents backwards from the result: the finalize region leaves
  `Finalize P mean var gamma beta` of what it is entered with; P is what the combine region wrote, the
  aggregate plus the bias row; the aggregate is the host chain over the matmul region's product; mean and
  var are the host's statistics of the combine region's partial sums. Each piece equals the reference's
  stage of the same arguments (the bridges), the statistics because every entry of P is real under the
  precondition. So the result is the reference's result stage of the argument arrays as launched.
-/
import proofs.«103114_j34007551050423_2_alg».proof.Defs
import proofs.«103114_j34007551050423_2_alg».proof.Proof.Fold
import proofs.«103114_j34007551050423_2_alg».proof.Proof.Region0
import proofs.«103114_j34007551050423_2_alg».proof.Proof.Region1
import proofs.«103114_j34007551050423_2_alg».proof.Proof.Region2
import proofs.«103114_j34007551050423_2_alg».proof.Proof.RefTail
import proofs.«103114_j34007551050423_2_alg».proof.Proof.BridgeAgg
import proofs.«103114_j34007551050423_2_alg».proof.Proof.BridgeMoments
import proofs.«103114_j34007551050423_2_alg».proof.Proof.PreReal
import proofs.«103114_j34007551050423_2_alg».proof.Proof.InputsReal
import proofs.«103114_j34007551050423_2_alg».proof.Proof.Gen.Pre_finite_inputs

set_option maxRecDepth 16384

noncomputable section

namespace Cert.KernelIdeal.KernelValue

open Cert.KernelIdeal Cert.KernelIdeal.Gen Cert.KernelIdeal.Fold
open Idealize.ShloMosaic Idealize.ShloMosaic.TcCoe Idealize.SL.Sem Cert.Spec

variable (m : (ℓ : Loc nD τ sig) → Buf (Elt Ideal) ℓ) (ρ : Dev nD → PrngReg) (c : Dev nD)

set_option quotPrecheck false in
local notation "X0" => m ((c : Thread nD τ).loc main_arg0)
set_option quotPrecheck false in
local notation "X1" => m ((c : Thread nD τ).loc main_arg1)
set_option quotPrecheck false in
local notation "X2" => m ((c : Thread nD τ).loc main_arg2)
set_option quotPrecheck false in
local notation "X3" => m ((c : Thread nD τ).loc main_arg3)
set_option quotPrecheck false in
local notation "X4" => m ((c : Thread nD τ).loc main_arg4)
set_option quotPrecheck false in
local notation "X5" => m ((c : Thread nD τ).loc main_arg5)

/-- The matmul region's product is the reference's contraction of the arguments. -/
theorem h_eq : W2 m ρ c (Proc.devRef .tc main_v4) = Cert.ReferenceIdeal.Read.val_main_v4 (F := Ideal) X0 X2 := by
  have e : W2 m ρ c (Proc.devRef .tc main_v4) = (dat0 (F := Ideal) (V1 m ρ) c).arrAt 2 cfg0.N := W2_arr m ρ c 2
  rw [e, Region0.final, V1_arg0, V1_arg2]
  exact Cert.Bridge.matmul_eq _ _

theorem src_eq : W2 m ρ c (Proc.devRef .tc main_v1) = srcOf X1 :=
  (W2_of_ne m ρ c main_v1 (by decide)).trans (W1_v1 m ρ c)
theorem dst_eq : W2 m ρ c (Proc.devRef .tc main_v3) = dstOf X1 :=
  (W2_of_ne m ρ c main_v3 (by decide)).trans (W1_v3 m ρ c)
theorem b_eq : W2 m ρ c (Proc.devRef .tc main_arg3) = X3 :=
  (W2_of_ne m ρ c main_arg3 (by decide)).trans (W1_arg m ρ c main_arg3 (Or.inl rfl))
theorem gamma_eq : W2 m ρ c (Proc.devRef .tc main_arg4) = X4 :=
  (W2_of_ne m ρ c main_arg4 (by decide)).trans (W1_arg m ρ c main_arg4 (Or.inr (Or.inl rfl)))
theorem beta_eq : W2 m ρ c (Proc.devRef .tc main_arg5) = X5 :=
  (W2_of_ne m ρ c main_arg5 (by decide)).trans (W1_arg m ρ c main_arg5 (Or.inr (Or.inr rfl)))

/-- What the combine region is entered with gives the reference's pre-normalisation stage. -/
theorem pre_in_eq : AddBias (V3 m ρ c main_v54) (V3 m ρ c main_v55)
    = Cert.ReferenceIdeal.Read.val_main_v53 (F := Ideal) X0 X1 X2 X3 := by
  rw [V3_v54, V3_v55, h_eq, src_eq, dst_eq, b_eq, Cert.Bridge.agg_eq]
  exact Cert.Bridge.pre_eq _ _ _ _

theorem pre_eq : W4 m ρ c (Proc.devRef .tc main_v58_0) = Cert.ReferenceIdeal.Read.val_main_v53 (F := Ideal) X0 X1 X2 X3 := by
  have e : W4 m ρ c (Proc.devRef .tc main_v58_0) = (dat1 (F := Ideal) (V3 m ρ) c).arrAt 2 cfg1.N := W4_arr m ρ c 2
  rw [e, Region1.final_pre, pre_in_eq]
theorem sum_eq : W4 m ρ c (Proc.devRef .tc main_v58_1)
    = BlockSums (Cert.ReferenceIdeal.Read.val_main_v53 (F := Ideal) X0 X1 X2 X3) := by
  have e : W4 m ρ c (Proc.devRef .tc main_v58_1) = (dat1 (F := Ideal) (V3 m ρ) c).arrAt 3 cfg1.N := W4_arr m ρ c 3
  rw [e, Region1.final_sum, pre_in_eq]
theorem sumsq_eq : W4 m ρ c (Proc.devRef .tc main_v58_2)
    = BlockSums (Sq (Cert.ReferenceIdeal.Read.val_main_v53 (F := Ideal) X0 X1 X2 X3)) := by
  have e : W4 m ρ c (Proc.devRef .tc main_v58_2) = (dat1 (F := Ideal) (V3 m ρ) c).arrAt 4 cfg1.N := W4_arr m ρ c 4
  rw [e, Region1.final_sumsq, pre_in_eq]

theorem gamma_row : V5 m ρ c main_v56 = Cert.Spec.row X4 := by
  rw [V5_v56, W4_of_ne m ρ c main_v56 (by decide), W3_v56, gamma_eq]
  exact Cert.Layout.row_eq' _
theorem beta_row : V5 m ρ c main_v57 = Cert.Spec.row X5 := by
  rw [V5_v57, W4_of_ne m ρ c main_v57 (by decide), W3_v57, beta_eq]
  exact Cert.Layout.row_eq' _

/-- Under the precondition the kernel's result buffer ends at the reference's result stage of the arguments. -/
theorem result_eq (hpre : Cert.Pre_KernelIdeal m) :
    W6 m ρ c (Proc.devRef .tc main_v75) = Cert.ReferenceIdeal.Read.val_main_v87 (F := Ideal) X0 X1 X2 X3 X4 X5 := by
  obtain ⟨h0, h2, h3⟩ := Cert.InputsReal.of_pre _ _ _ _ _ _ (hpre c)
  have hP : IsReal (Cert.ReferenceIdeal.Read.val_main_v53 (F := Ideal) X0 X1 X2 X3) :=
    Cert.ReferenceIdeal.PreReal.pre_real _ _ _ _ h0 h2 h3
  have e : W6 m ρ c (Proc.devRef .tc main_v75) = (dat2 (F := Ideal) (V5 m ρ) c).arrAt 5 cfg2.N := W6_arr m ρ c 5
  rw [e, Region2.final, V5_v58_0, pre_eq, V5_v68, V5_v74, sum_eq, sumsq_eq, gamma_row, beta_row,
    Cert.Bridge.mean_bridge _ _ _ _ hP, Cert.Bridge.var_bridge _ _ _ _ hP]
  exact (Cert.ReferenceIdeal.RefTail.val_out _ _ _ _ _ _).symm

end Cert.KernelIdeal.KernelValue

end
-- ==== Proof.lean ====
/-
  A graph-convolution layer followed by BatchNorm, ReLU and L2 row normalisation: the Pallas kernel against
  its jnp reference, as exact functions on the extended reals, for finite float inputs.

  Both programs compute h = x·W, the degree deg = 1 + (number of edges into each node), dinv = deg^(-1/2),
  the aggregate agg(i) = h(i)·dinv(i)² + Σ_{edges e into i} dinv(src e)·dinv(dst e)·h(src e), P = agg + b,
  the column mean and variance of P over the 50000 rows, and
      y = max((P − mean)·(var + ε)^(-1/2)·γ + β, 0),   out = y / max(‖y‖₂ per row, ε').
  They differ in three arrangements, each an identity over the reals:
    * the degree as (0 + count) + 1 against 1 + count;
    * the column sums taken per block of 5000 rows, each stored 8 times, summed and divided by 8;
    * the variance as max(E[P²] − (E P)², 0) against E[(P − E P)²] — equal because every entry of P is a
      real number when the inputs are finite (finite sums and products of reals, and deg ≥ 1 > 0).
  The kernel runs h, then P with its partial sums, then the last line as three tiled regions of ten blocks;
  each region's output array is read off its blocks, and the host operations between them are read through
  the fold of buffer contents. The kernel-to-idealized-kernel conjunct is trivial (no rewrite was applied).
-/
import proofs.«103114_j34007551050423_2_alg».proof.Defs
import proofs.«103114_j34007551050423_2_alg».proof.Proof.Gen.Kernel
import proofs.«103114_j34007551050423_2_alg».proof.Proof.Gen.Kernel.Skeleton
import proofs.«103114_j34007551050423_2_alg».proof.Proof.Gen.Kernel.Launch
import proofs.«103114_j34007551050423_2_alg».proof.Proof.Gen.Kernel.Points
import proofs.«103114_j34007551050423_2_alg».proof.Proof.Gen.Kernel.Frame
import proofs.«103114_j34007551050423_2_alg».proof.Proof.Gen.KernelIdeal
import proofs.«103114_j34007551050423_2_alg».proof.Proof.Gen.KernelIdeal.Skeleton
import proofs.«103114_j34007551050423_2_alg».proof.Proof.Gen.KernelIdeal.Launch
import proofs.«103114_j34007551050423_2_alg».proof.Proof.Gen.KernelIdeal.Points
import proofs.«103114_j34007551050423_2_alg».proof.Proof.Gen.KernelIdeal.Frame
import proofs.«103114_j34007551050423_2_alg».proof.Proof.Gen.ReferenceIdeal
import proofs.«103114_j34007551050423_2_alg».proof.Proof.Gen.Pre_finite_inputs
import proofs.«103114_j34007551050423_2_alg».proof.Proof.RefRun
import proofs.«103114_j34007551050423_2_alg».proof.Proof.RefRead
import proofs.«103114_j34007551050423_2_alg».proof.Proof.RunValue
import proofs.«103114_j34007551050423_2_alg».proof.Proof.KernelValue
import Idealize.ShloMosaic.Adequacy
import Idealize.ShloMosaic.Init

noncomputable section

namespace Cert.Proof

open Idealize.ShloMosaic Idealize.SL.Sem

/-- The word-level kernel runs to the end without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories agreeing on the arguments both idealized programs end with the same result array: the
    kernel's result buffer holds the reference's result stage of the arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v75),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, (hagree c).1, (hagree c).2.1, (hagree c).2.2.1, (hagree c).2.2.2.1,
    (hagree c).2.2.2.2.1, (hagree c).2.2.2.2.2]
  exact (Cert.KernelIdeal.KernelValue.result_eq m ρ c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
